-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x768 : Shape := ⟨2, ![128, 768]⟩
abbrev S256x768 : Shape := ⟨2, ![256, 768]⟩
abbrev S768x765 : Shape := ⟨2, ![768, 765]⟩
abbrev S765 : Shape := ⟨1, ![765]⟩
abbrev S_ : Shape := ⟨0, ![]⟩

class Facts : Prop where
  bcast_S_S128x768 : S_.BroadcastsInDim S128x768 (![] : Fin 0 → Fin S128x768.rank)
  reducesTo_S128x768_S_d0_1 : S128x768.ReducesTo [0, 1] S_
  h_S_ : 0 < S_.numel
  bcast_S_S256x768 : S_.BroadcastsInDim S256x768 (![] : Fin 0 → Fin S256x768.rank)
  reducesTo_S256x768_S_d0_1 : S256x768.ReducesTo [0, 1] S_
  bcast_S_S768x765 : S_.BroadcastsInDim S768x765 (![] : Fin 0 → Fin S768x765.rank)
  reducesTo_S768x765_S_d0_1 : S768x765.ReducesTo [0, 1] S_
  bcast_S_S765 : S_.BroadcastsInDim S765 (![] : Fin 0 → Fin S765.rank)
  reducesTo_S765_S_d0 : S765.ReducesTo [0] S_

variable [Facts]

def fn_part1 {F : FTy → Type} [FloatOps F] (main_v13 : IVec S_ 1) (main_v16 : IVec S765 1) : IVec S_ 1 :=
  let main_c_5 : IVec S_ 1 := constantI S_ 1 1#1
  let main_v17 : IVec S_ 1 := (fun x v => Host.reduce IntOp.andi x v reducesTo_S765_S_d0 h_S_) main_v16 main_c_5
  let main_v18 : IVec S_ 1 := andi main_v13 main_v17
  main_v18

def fn {F : FTy → Type} [FloatOps F] (main_arg0 : FVec F S128x768 .f32) (main_arg1 : FVec F S256x768 .f32) (main_arg2 : FVec F S768x765 .f32) (main_arg3 : FVec F S765 .f32) : IVec S_ 1 :=
  let main_v0 : FVec F S128x768 .f32 := Host.absf main_arg0
  let main_cst : FVec F S_ .f32 := constant S_ .f32 0x7F800000#32
  let main_v1 : FVec F S128x768 .f32 := broadcastInDim S128x768 ![] bcast_S_S128x768 main_cst
  let main_v2 : IVec S128x768 1 := cmpf .olt main_v0 main_v1
  let main_c : IVec S_ 1 := constantI S_ 1 1#1
  let main_v3 : IVec S_ 1 := (fun x v => Host.reduce IntOp.andi x v reducesTo_S128x768_S_d0_1 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S768x765 .f32 := Host.absf main_arg2
  let main_cst_2 : FVec F S_ .f32 := constant S_ .f32 0x7F800000#32
  let main_v10 : FVec F S768x765 .f32 := broadcastInDim S768x765 ![] bcast_S_S768x765 main_cst_2
  let main_v11 : IVec S768x765 1 := cmpf .olt main_v9 main_v10
  let main_c_3 : IVec S_ 1 := constantI S_ 1 1#1
  let main_v12 : IVec S_ 1 := (fun x v => Host.reduce IntOp.andi x v reducesTo_S768x765_S_d0_1 h_S_) main_v11 main_c_3
  let main_v13 : IVec S_ 1 := andi main_v8 main_v12
  let main_v14 : FVec F S765 .f32 := Host.absf main_arg3
  let main_cst_4 : FVec F S_ .f32 := constant S_ .f32 0x7F800000#32
  let main_v15 : FVec F S765 .f32 := broadcastInDim S765 ![] bcast_S_S765 main_cst_4
  let main_v16 : IVec S765 1 := cmpf .olt main_v14 main_v15
  fn_part1 (F := F) main_v13 main_v16
-- ==== Kernel.lean ====
abbrev S128x768 : Shape := ⟨2, ![128, 768]⟩
abbrev S256x768 : Shape := ⟨2, ![256, 768]⟩
abbrev S768x765 : Shape := ⟨2, ![768, 765]⟩
abbrev S765 : Shape := ⟨1, ![765]⟩
abbrev S256x765 : Shape := ⟨2, ![256, 765]⟩
abbrev S128x765 : Shape := ⟨2, ![128, 765]⟩
abbrev S1x765 : Shape := ⟨2, ![1, 765]⟩
abbrev S128x153 : Shape := ⟨2, ![128, 153]⟩
abbrev S256x153 : Shape := ⟨2, ![256, 153]⟩
abbrev S128 : Shape := ⟨1, ![128]⟩
abbrev S128x1 : Shape := ⟨2, ![128, 1]⟩
abbrev S256 : Shape := ⟨1, ![256]⟩
abbrev S256x1 : Shape := ⟨2, ![256, 1]⟩
abbrev S153x128 : Shape := ⟨2, ![153, 128]⟩
abbrev S256x128 : Shape := ⟨2, ![256, 128]⟩
abbrev S1x128 : Shape := ⟨2, ![1, 128]⟩

abbrev nBuf : Space → Nat
  | .hbm => 5
  | .vmem => 5
  | .smem => 0
  | _ => 0

abbrev bufTy : (tb : Table) → Fin (tcTables nBuf tb) → BufTy
  | .hbm, ⟨0, _⟩ => ⟨S128x768, .f32⟩
  | .hbm, ⟨1, _⟩ => ⟨S256x768, .f32⟩
  | .hbm, ⟨2, _⟩ => ⟨S768x765, .f32⟩
  | .hbm, ⟨3, _⟩ => ⟨S765, .f32⟩
  | .hbm, ⟨4, _⟩ => ⟨S256x765, .f32⟩
  | .local _ .vmem, ⟨0, _⟩ => ⟨S128x768, .f32⟩
  | .local _ .vmem, ⟨1, _⟩ => ⟨S256x768, .f32⟩
  | .local _ .vmem, ⟨2, _⟩ => ⟨S768x765, .f32⟩
  | .local _ .vmem, ⟨3, _⟩ => ⟨S765, .f32⟩
  | .local _ .vmem, ⟨4, _⟩ => ⟨S256x765, .f32⟩
  | _, _ => ⟨S128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x765 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S765 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x765 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S128x768_S128x768_0_0 : ∀ a, (![0, 0] : Fin 2 → Nat) a + S128x768.size a ≤ S128x768.size a
  h_S128x768 : 0 < S128x768.numel
  inb_S256x768_S256x768_0_0 : ∀ a, (![0, 0] : Fin 2 → Nat) a + S256x768.size a ≤ S256x768.size a
  h_S256x768 : 0 < S256x768.numel
  inb_S768x765_S768x765_0_0 : ∀ a, (![0, 0] : Fin 2 → Nat) a + S768x765.size a ≤ S768x765.size a
  h_S768x765 : 0 < S768x765.numel
  inb_S765_S765_0 : ∀ a, (![0] : Fin 1 → Nat) a + S765.size a ≤ S765.size a
  h_S765 : 0 < S765.numel
  shapeCasts_S765_S1x765 : S765.ShapeCasts S1x765
  broadcasts_S1x765_S128x765 : S1x765.Broadcasts S128x765
  broadcasts_S1x765_S256x765 : S1x765.Broadcasts S256x765
  slices_S128x765_o0_0_S128x153 : S128x765.Slices ![0, 0] S128x153
  slices_S128x765_o0_153_S128x153 : S128x765.Slices ![0, 153] S128x153
  slices_S128x765_o0_306_S128x153 : S128x765.Slices ![0, 306] S128x153
  slices_S128x765_o0_459_S128x153 : S128x765.Slices ![0, 459] S128x153
  slices_S128x765_o0_612_S128x153 : S128x765.Slices ![0, 612] S128x153
  slices_S256x765_o0_0_S256x153 : S256x765.Slices ![0, 0] S256x153
  slices_S256x765_o0_153_S256x153 : S256x765.Slices ![0, 153] S256x153
  slices_S256x765_o0_306_S256x153 : S256x765.Slices ![0, 306] S256x153
  slices_S256x765_o0_459_S256x153 : S256x765.Slices ![0, 459] S256x153
  slices_S256x765_o0_612_S256x153 : S256x765.Slices ![0, 612] S256x153
  reduces_S128x153_S128 : S128x153.Reduces [1] S128
  shapeCasts_S128_S128x1 : S128.ShapeCasts S128x1
  broadcasts_S128x1_S128x153 : S128x1.Broadcasts S128x153
  reduces_S256x153_S256 : S256x153.Reduces [1] S256
  shapeCasts_S256_S256x1 : S256.ShapeCasts S256x1
  broadcasts_S256x1_S256x153 : S256x1.Broadcasts S256x153
  transposes_S128x153_p1_0_S153x128 : S128x153.Transposes [1, 0] S153x128
  shapeCasts_S128_S1x128 : S128.ShapeCasts S1x128
  broadcasts_S256x1_S256x128 : S256x1.Broadcasts S256x128
  broadcasts_S1x128_S256x128 : S1x128.Broadcasts S256x128
  inb_S256x765_S256x153_0_0 : ∀ a, (![0, 0] : Fin 2 → Nat) a + S256x153.size a ≤ S256x765.size a
  h_S256x153 : 0 < S256x153.numel
  inb_S256x765_S256x153_0_153 : ∀ a, (![0, 153] : Fin 2 → Nat) a + S256x153.size a ≤ S256x765.size a
  inb_S256x765_S256x153_0_306 : ∀ a, (![0, 306] : Fin 2 → Nat) a + S256x153.size a ≤ S256x765.size a
  inb_S256x765_S256x153_0_459 : ∀ a, (![0, 459] : Fin 2 → Nat) a + S256x153.size a ≤ S256x765.size a
  inb_S256x765_S256x153_0_612 : ∀ a, (![0, 612] : Fin 2 → Nat) a + S256x153.size a ≤ S256x765.size a
  dot_S128x768_S768x765_S128x765_1_0_0_1_n_n_wf : DotDims.WF S128x768 S768x765 S128x765 [1] [0] [0] [1] [] []
  dot_S256x768_S768x765_S256x765_1_0_0_1_n_n_wf : DotDims.WF S256x768 S768x765 S256x765 [1] [0] [0] [1] [] []
  dot_S256x153_S153x128_S256x128_1_0_0_1_n_n_wf : DotDims.WF S256x153 S153x128 S256x128 [1] [0] [0] [1] [] []
  dot_S256x128_S128x153_S256x153_1_0_0_1_n_n_wf : DotDims.WF S256x128 S128x153 S256x153 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x768.size a ≤ S128x768.size a
  hwx0_0 : ∀ i : grid0.Coords, EltTy.bits .f32 = 32 ∨ (Rect.block (s := S128x768) S128x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x765.size a ≤ S768x765.size a
  hwx0_2 : ∀ i : grid0.Coords, EltTy.bits .f32 = 32 ∨ (Rect.block (s := S768x765) S768x765.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S765.size a ≤ S765.size a
  hwx0_3 : ∀ i : grid0.Coords, EltTy.bits .f32 = 32 ∨ (Rect.block (s := S765) S765.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x765.size a ≤ S256x765.size a
  hwx0_4 : ∀ i : grid0.Coords, EltTy.bits .f32 = 32 ∨ (Rect.block (s := S256x765) S256x765.size (cc0_transform_4 i) (hinb0_4 i)).WholeWords (EltTy.packing .f32)

variable [Facts₀]

def dot_S128x768_S768x765_S128x765_1_0_0_1_n_n : DotDims S128x768 S768x765 S128x765 where
  lhsContracting := [1]
  rhsContracting := [0]
  lhsNonContracting := [0]
  rhsNonContracting := [1]
  lhsBatch := []
  rhsBatch := []
  wf := dot_S128x768_S768x765_S128x765_1_0_0_1_n_n_wf
def dot_S256x768_S768x765_S256x765_1_0_0_1_n_n : DotDims S256x768 S768x765 S256x765 where
  lhsContracting := [1]
  rhsContracting := [0]
  lhsNonContracting := [0]
  rhsNonContracting := [1]
  lhsBatch := []
  rhsBatch := []
  wf := dot_S256x768_S768x765_S256x765_1_0_0_1_n_n_wf
def dot_S256x153_S153x128_S256x128_1_0_0_1_n_n : DotDims S256x153 S153x128 S256x128 where
  lhsContracting := [1]
  rhsContracting := [0]
  lhsNonContracting := [0]
  rhsNonContracting := [1]
  lhsBatch := []
  rhsBatch := []
  wf := dot_S256x153_S153x128_S256x128_1_0_0_1_n_n_wf
def dot_S256x128_S128x153_S256x153_1_0_0_1_n_n : DotDims S256x128 S128x153 S256x153 where
  lhsContracting := [1]
  rhsContracting := [0]
  lhsNonContracting := [0]
  rhsNonContracting := [1]
  lhsBatch := []
  rhsBatch := []
  wf := dot_S256x128_S128x153_S256x153_1_0_0_1_n_n_wf

abbrev win0_0 : Pipeline.Window sig grid0 :=
  Pipeline.Window.ofSpec (Memref.whole main_arg0) S128x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x765.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S765.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x765.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x768 : Shape := ⟨2, ![128, 768]⟩
abbrev S256x768 : Shape := ⟨2, ![256, 768]⟩
abbrev S768x765 : Shape := ⟨2, ![768, 765]⟩
abbrev S765 : Shape := ⟨1, ![765]⟩
abbrev S128x765 : Shape := ⟨2, ![128, 765]⟩
abbrev S1x765 : Shape := ⟨2, ![1, 765]⟩
abbrev S128x5x153 : Shape := ⟨3, ![128, 5, 153]⟩
abbrev S256x765 : Shape := ⟨2, ![256, 765]⟩
abbrev S256x5x153 : Shape := ⟨3, ![256, 5, 153]⟩
abbrev S1x128x5x153 : Shape := ⟨4, ![1, 128, 5, 153]⟩
abbrev S256x1x5x153 : Shape := ⟨4, ![256, 1, 5, 153]⟩
abbrev S_ : Shape := ⟨0, ![]⟩
abbrev S256x128x5 : Shape := ⟨3, ![256, 128, 5]⟩
abbrev S1x128x5 : Shape := ⟨3, ![1, 128, 5]⟩
abbrev S1x128x5x1 : Shape := ⟨4, ![1, 128, 5, 1]⟩
abbrev S256x1x5 : Shape := ⟨3, ![256, 1, 5]⟩
abbrev S256x1x5x1 : Shape := ⟨4, ![256, 1, 5, 1]⟩
abbrev S256x128x5x153 : Shape := ⟨4, ![256, 128, 5, 153]⟩
abbrev S256x128 : Shape := ⟨2, ![256, 128]⟩
abbrev S256x128x1 : Shape := ⟨3, ![256, 128, 1]⟩
abbrev S256x128x5x1 : Shape := ⟨4, ![256, 128, 5, 1]⟩
abbrev S256x5 : Shape := ⟨2, ![256, 5]⟩
abbrev S256x5x1 : Shape := ⟨3, ![256, 5, 1]⟩

abbrev nBuf : Space → Nat
  | .hbm => 277
  | .vmem => 0
  | .smem => 0
  | _ => 0

abbrev hbmTy0_0 (i : Nat) : BufTy := match i % 128 with
  | 0 => ⟨S128x768, .f32⟩
  | 1 => ⟨S256x768, .f32⟩
  | 2 => ⟨S768x765, .f32⟩
  | 3 => ⟨S765, .f32⟩
  | 4 => ⟨S128x765, .f32⟩
  | 5 => ⟨S1x765, .f32⟩
  | 6 => ⟨S128x765, .f32⟩
  | 7 => ⟨S128x765, .f32⟩
  | 8 => ⟨S128x5x153, .f32⟩
  | 9 => ⟨S256x765, .f32⟩
  | 10 => ⟨S1x765, .f32⟩
  | 11 => ⟨S256x765, .f32⟩
  | 12 => ⟨S256x765, .f32⟩
  | 13 => ⟨S256x5x153, .f32⟩
  | 14 => ⟨S1x128x5x153, .f32⟩
  | 15 => ⟨S256x1x5x153, .f32⟩
  | 16 => ⟨S_, .f32⟩
  | 17 => ⟨S256x128x5, .f32⟩
  | 18 => ⟨S_, .f32⟩
  | 19 => ⟨S1x128x5, .f32⟩
  | 20 => ⟨S1x128x5x1, .f32⟩
  | 21 => ⟨S_, .f32⟩
  | 22 => ⟨S1x128x5x1, .f32⟩
  | 23 => ⟨S1x128x5x1, .f32⟩
  | 24 => ⟨S1x128x5x153, .f32⟩
  | 25 => ⟨S1x128x5x153, .f32⟩
  | 26 => ⟨S_, .f32⟩
  | 27 => ⟨S256x1x5, .f32⟩
  | 28 => ⟨S256x1x5x1, .f32⟩
  | 29 => ⟨S_, .f32⟩
  | 30 => ⟨S256x1x5x1, .f32⟩
  | 31 => ⟨S256x1x5x1, .f32⟩
  | 32 => ⟨S256x1x5x153, .f32⟩
  | 33 => ⟨S256x1x5x153, .f32⟩
  | 34 => ⟨S256x128x5x153, .f32⟩
  | 35 => ⟨S256x128x5x153, .f32⟩
  | 36 => ⟨S256x128x5x153, .f32⟩
  | 37 => ⟨S_, .f32⟩
  | 38 => ⟨S256x128x5, .f32⟩
  | 39 => ⟨S1x128x5x153, .f32⟩
  | 40 => ⟨S_, .f32⟩
  | 41 => ⟨S1x128x5, .f32⟩
  | 42 => ⟨S1x128x5, .f32⟩
  | 43 => ⟨S256x1x5x153, .f32⟩
  | 44 => ⟨S_, .f32⟩
  | 45 => ⟨S256x1x5, .f32⟩
  | 46 => ⟨S256x1x5, .f32⟩
  | 47 => ⟨S256x128x5, .f32⟩
  | 48 => ⟨S256x128x5, .f32⟩
  | 49 => ⟨S256x128x5, .f32⟩
  | 50 => ⟨S_, .f32⟩
  | 51 => ⟨S256x128x5, .f32⟩
  | 52 => ⟨S256x128x5, .f32⟩
  | 53 => ⟨S256x128x5, .f32⟩
  | 54 => ⟨S256x128x5, .f32⟩
  | 55 => ⟨S_, .f32⟩
  | 56 => ⟨S256x128x5, .f32⟩
  | 57 => ⟨S256x128x5, .f32⟩
  | 58 => ⟨S_, .f32⟩
  | 59 => ⟨S256x128, .f32⟩
  | 60 => ⟨S_, .f32⟩
  | 61 => ⟨S256x128, .f32⟩
  | 62 => ⟨S256x128, .f32⟩
  | 63 => ⟨S256x128x1, .f32⟩
  | 64 => ⟨S256x128x5, .f32⟩
  | 65 => ⟨S256x128x5, .f32⟩
  | 66 => ⟨S256x128x5, .f32⟩
  | 67 => ⟨S_, .f32⟩
  | 68 => ⟨S256x128, .f32⟩
  | 69 => ⟨S256x128x1, .f32⟩
  | 70 => ⟨S256x128x5, .f32⟩
  | 71 => ⟨S256x128x5, .f32⟩
  | 72 => ⟨S256x128x5, .f32⟩
  | 73 => ⟨S256x128x5x1, .f32⟩
  | 74 => ⟨S256x128x5x153, .f32⟩
  | 75 => ⟨S256x128x5x153, .f32⟩
  | 76 => ⟨S256x128x5x153, .f32⟩
  | 77 => ⟨S_, .f32⟩
  | 78 => ⟨S256x5x153, .f32⟩
  | 79 => ⟨S256x5x153, .f32⟩
  | 80 => ⟨S_, .f32⟩
  | 81 => ⟨S256x5, .f32⟩
  | 82 => ⟨S256x5x1, .f32⟩
  | 83 => ⟨S_, .f32⟩
  | 84 => ⟨S256x5x1, .f32⟩
  | 85 => ⟨S256x5x1, .f32⟩
  | 86 => ⟨S256x5x1, .f32⟩
  | 87 => ⟨S256x5x153, .f32⟩
  | 88 => ⟨S256x5x153, .f32⟩
  | 89 => ⟨S_, .f32⟩
  | 90 => ⟨S256x5x1, .f32⟩
  | 91 => ⟨S256x5x1, .f32⟩
  | 92 => ⟨S256x5x1, .f32⟩
  | 93 => ⟨S256x5x153, .f32⟩
  | 94 => ⟨S256x5x153, .f32⟩
  | 95 => ⟨S256x1x5x153, .f32⟩
  | 96 => ⟨S256x128x5x153, .f32⟩
  | 97 => ⟨S256x128x5x153, .f32⟩
  | 98 => ⟨S256x128x5x153, .f32⟩
  | 99 => ⟨S_, .f32⟩
  | 100 => ⟨S256x128x5, .f32⟩
  | 101 => ⟨S256x128x5, .f32⟩
  | 102 => ⟨S256x128x5, .f32⟩
  | 103 => ⟨S256x1x5x153, .f32⟩
  | 104 => ⟨S256x1x5x153, .f32⟩
  | 105 => ⟨S_, .f32⟩
  | 106 => ⟨S256x1x5x153, .f32⟩
  | 107 => ⟨S256x1x5x153, .f32⟩
  | 108 => ⟨S_, .f32⟩
  | 109 => ⟨S1x128x5, .f32⟩
  | 110 => ⟨S1x128x5x1, .f32⟩
  | 111 => ⟨S_, .f32⟩
  | 112 => ⟨S1x128x5x1, .f32⟩
  | 113 => ⟨S1x128x5x1, .f32⟩
  | 114 => ⟨S1x128x5x153, .f32⟩
  | 115 => ⟨S1x128x5x153, .f32⟩
  | 116 => ⟨S_, .f32⟩
  | 117 => ⟨S256x1x5, .f32⟩
  | 118 => ⟨S256x1x5x1, .f32⟩
  | 119 => ⟨S_, .f32⟩
  | 120 => ⟨S256x1x5x1, .f32⟩
  | 121 => ⟨S256x1x5x1, .f32⟩
  | 122 => ⟨S256x1x5x153, .f32⟩
  | 123 => ⟨S256x1x5x153, .f32⟩
  | 124 => ⟨S256x128x5x153, .f32⟩
  | 125 => ⟨S256x128x5x153, .f32⟩
  | 126 => ⟨S256x128x5x153, .f32⟩
  | 127 => ⟨S_, .f32⟩
  | _ => ⟨S128x768, .f32⟩

abbrev hbmTy0_1 (i : Nat) : BufTy := match i % 128 with
  | 0 => ⟨S256x128x5, .f32⟩
  | 1 => ⟨S1x128x5x153, .f32⟩
  | 2 => ⟨S_, .f32⟩
  | 3 => ⟨S1x128x5, .f32⟩
  | 4 => ⟨S1x128x5, .f32⟩
  | 5 => ⟨S256x1x5x153, .f32⟩
  | 6 => ⟨S_, .f32⟩
  | 7 => ⟨S256x1x5, .f32⟩
  | 8 => ⟨S256x1x5, .f32⟩
  | 9 => ⟨S256x128x5, .f32⟩
  | 10 => ⟨S256x128x5, .f32⟩
  | 11 => ⟨S256x128x5, .f32⟩
  | 12 => ⟨S_, .f32⟩
  | 13 => ⟨S256x128x5, .f32⟩
  | 14 => ⟨S256x128x5, .f32⟩
  | 15 => ⟨S256x128x5, .f32⟩
  | 16 => ⟨S256x128x5, .f32⟩
  | 17 => ⟨S_, .f32⟩
  | 18 => ⟨S256x128x5, .f32⟩
  | 19 => ⟨S256x128x5, .f32⟩
  | 20 => ⟨S_, .f32⟩
  | 21 => ⟨S256x128, .f32⟩
  | 22 => ⟨S_, .f32⟩
  | 23 => ⟨S256x128, .f32⟩
  | 24 => ⟨S256x128, .f32⟩
  | 25 => ⟨S256x128x1, .f32⟩
  | 26 => ⟨S256x128x5, .f32⟩
  | 27 => ⟨S256x128x5, .f32⟩
  | 28 => ⟨S256x128x5, .f32⟩
  | 29 => ⟨S_, .f32⟩
  | 30 => ⟨S256x128, .f32⟩
  | 31 => ⟨S256x128x1, .f32⟩
  | 32 => ⟨S256x128x5, .f32⟩
  | 33 => ⟨S256x128x5, .f32⟩
  | 34 => ⟨S256x128x5, .f32⟩
  | 35 => ⟨S256x128x5x1, .f32⟩
  | 36 => ⟨S256x128x5x153, .f32⟩
  | 37 => ⟨S256x128x5x153, .f32⟩
  | 38 => ⟨S256x128x5x153, .f32⟩
  | 39 => ⟨S_, .f32⟩
  | 40 => ⟨S256x5x153, .f32⟩
  | 41 => ⟨S256x5x153, .f32⟩
  | 42 => ⟨S_, .f32⟩
  | 43 => ⟨S256x5, .f32⟩
  | 44 => ⟨S256x5x1, .f32⟩
  | 45 => ⟨S_, .f32⟩
  | 46 => ⟨S256x5x1, .f32⟩
  | 47 => ⟨S256x5x1, .f32⟩
  | 48 => ⟨S256x5x1, .f32⟩
  | 49 => ⟨S256x5x153, .f32⟩
  | 50 => ⟨S256x5x153, .f32⟩
  | 51 => ⟨S_, .f32⟩
  | 52 => ⟨S256x5x1, .f32⟩
  | 53 => ⟨S256x5x1, .f32⟩
  | 54 => ⟨S256x5x1, .f32⟩
  | 55 => ⟨S256x5x153, .f32⟩
  | 56 => ⟨S256x5x153, .f32⟩
  | 57 => ⟨S256x1x5x153, .f32⟩
  | 58 => ⟨S256x128x5x153, .f32⟩
  | 59 => ⟨S256x128x5x153, .f32⟩
  | 60 => ⟨S256x128x5x153, .f32⟩
  | 61 => ⟨S_, .f32⟩
  | 62 => ⟨S256x128x5, .f32⟩
  | 63 => ⟨S256x128x5, .f32⟩
  | 64 => ⟨S256x128x5, .f32⟩
  | 65 => ⟨S256x1x5x153, .f32⟩
  | 66 => ⟨S256x1x5x153, .f32⟩
  | 67 => ⟨S_, .f32⟩
  | 68 => ⟨S256x1x5x153, .f32⟩
  | 69 => ⟨S256x1x5x153, .f32⟩
  | 70 => ⟨S_, .f32⟩
  | 71 => ⟨S1x128x5, .f32⟩
  | 72 => ⟨S1x128x5x1, .f32⟩
  | 73 => ⟨S_, .f32⟩
  | 74 => ⟨S1x128x5x1, .f32⟩
  | 75 => ⟨S1x128x5x1, .f32⟩
  | 76 => ⟨S1x128x5x153, .f32⟩
  | 77 => ⟨S1x128x5x153, .f32⟩
  | 78 => ⟨S_, .f32⟩
  | 79 => ⟨S256x1x5, .f32⟩
  | 80 => ⟨S256x1x5x1, .f32⟩
  | 81 => ⟨S_, .f32⟩
  | 82 => ⟨S256x1x5x1, .f32⟩
  | 83 => ⟨S256x1x5x1, .f32⟩
  | 84 => ⟨S256x1x5x153, .f32⟩
  | 85 => ⟨S256x1x5x153, .f32⟩
  | 86 => ⟨S256x128x5x153, .f32⟩
  | 87 => ⟨S256x128x5x153, .f32⟩
  | 88 => ⟨S256x128x5x153, .f32⟩
  | 89 => ⟨S_, .f32⟩
  | 90 => ⟨S256x128x5, .f32⟩
  | 91 => ⟨S1x128x5x153, .f32⟩
  | 92 => ⟨S_, .f32⟩
  | 93 => ⟨S1x128x5, .f32⟩
  | 94 => ⟨S1x128x5, .f32⟩
  | 95 => ⟨S256x1x5x153, .f32⟩
  | 96 => ⟨S_, .f32⟩
  | 97 => ⟨S256x1x5, .f32⟩
  | 98 => ⟨S256x1x5, .f32⟩
  | 99 => ⟨S256x128x5, .f32⟩
  | 100 => ⟨S256x128x5, .f32⟩
  | 101 => ⟨S256x128x5, .f32⟩
  | 102 => ⟨S_, .f32⟩
  | 103 => ⟨S256x128x5, .f32⟩
  | 104 => ⟨S256x128x5, .f32⟩
  | 105 => ⟨S256x128x5, .f32⟩
  | 106 => ⟨S256x128x5, .f32⟩
  | 107 => ⟨S_, .f32⟩
  | 108 => ⟨S256x128x5, .f32⟩
  | 109 => ⟨S256x128x5, .f32⟩
  | 110 => ⟨S_, .f32⟩
  | 111 => ⟨S256x128, .f32⟩
  | 112 => ⟨S_, .f32⟩
  | 113 => ⟨S256x128, .f32⟩
  | 114 => ⟨S256x128, .f32⟩
  | 115 => ⟨S256x128x1, .f32⟩
  | 116 => ⟨S256x128x5, .f32⟩
  | 117 => ⟨S256x128x5, .f32⟩
  | 118 => ⟨S256x128x5, .f32⟩
  | 119 => ⟨S_, .f32⟩
  | 120 => ⟨S256x128, .f32⟩
  | 121 => ⟨S256x128x1, .f32⟩
  | 122 => ⟨S256x128x5, .f32⟩
  | 123 => ⟨S256x128x5, .f32⟩
  | 124 => ⟨S256x128x5, .f32⟩
  | 125 => ⟨S1x128x5x153, .f32⟩
  | 126 => ⟨S256x128x5x1, .f32⟩
  | 127 => ⟨S256x128x5x153, .f32⟩
  | _ => ⟨S128x768, .f32⟩

abbrev hbmTy0_2 (i : Nat) : BufTy := match i % 128 with
  | 0 => ⟨S256x128x5x153, .f32⟩
  | 1 => ⟨S256x128x5x153, .f32⟩
  | 2 => ⟨S_, .f32⟩
  | 3 => ⟨S256x5x153, .f32⟩
  | 4 => ⟨S256x5x153, .f32⟩
  | 5 => ⟨S_, .f32⟩
  | 6 => ⟨S256x5, .f32⟩
  | 7 => ⟨S256x5x1, .f32⟩
  | 8 => ⟨S_, .f32⟩
  | 9 => ⟨S256x5x1, .f32⟩
  | 10 => ⟨S256x5x1, .f32⟩
  | 11 => ⟨S256x5x1, .f32⟩
  | 12 => ⟨S256x5x153, .f32⟩
  | 13 => ⟨S256x5x153, .f32⟩
  | 14 => ⟨S_, .f32⟩
  | 15 => ⟨S256x5x1, .f32⟩
  | 16 => ⟨S256x5x1, .f32⟩
  | 17 => ⟨S256x5x1, .f32⟩
  | 18 => ⟨S256x5x153, .f32⟩
  | 19 => ⟨S256x5x153, .f32⟩
  | 20 => ⟨S256x765, .f32⟩
  | _ => ⟨S128x768, .f32⟩

abbrev hbmTy (i : Nat) : BufTy := match i / 128 with
  | 0 => hbmTy0_0 i
  | 1 => hbmTy0_1 i
  | 2 => hbmTy0_2 i
  | _ => ⟨S128x768, .f32⟩

abbrev bufTy : (tb : Table) → Fin (tcTables nBuf tb) → BufTy
  | .hbm, ⟨i, _⟩ => hbmTy i
  | _, _ => ⟨S128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_cst_13 : Ref sig .tc := ⟨.hbm, 80, rfl⟩
abbrev main_v62 : Ref sig .tc := ⟨.hbm, 81, rfl⟩
abbrev main_v63 : Ref sig .tc := ⟨.hbm, 82, rfl⟩
abbrev main_cst_14 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_16 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_17 : Ref sig .tc := ⟨.hbm, 105, rfl⟩
abbrev main_v83 : Ref sig .tc := ⟨.hbm, 106, rfl⟩
abbrev main_v84 : Ref sig .tc := ⟨.hbm, 107, rfl⟩
abbrev main_cst_18 : Ref sig .tc := ⟨.hbm, 108, rfl⟩
abbrev main_v85 : Ref sig .tc := ⟨.hbm, 109, rfl⟩
abbrev main_v86 : Ref sig .tc := ⟨.hbm, 110, rfl⟩
abbrev main_cst_19 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_20 : Ref sig .tc := ⟨.hbm, 116, rfl⟩
abbrev main_v91 : Ref sig .tc := ⟨.hbm, 117, rfl⟩
abbrev main_v92 : Ref sig .tc := ⟨.hbm, 118, rfl⟩
abbrev main_cst_21 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_22 : Ref sig .tc := ⟨.hbm, 127, rfl⟩
abbrev main_v100 : Ref sig .tc := ⟨.hbm, 128, rfl⟩
abbrev main_v101 : Ref sig .tc := ⟨.hbm, 129, rfl⟩
abbrev main_cst_23 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_24 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_25 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_26 : Ref sig .tc := ⟨.hbm, 145, rfl⟩
abbrev main_v114 : Ref sig .tc := ⟨.hbm, 146, rfl⟩
abbrev main_v115 : Ref sig .tc := ⟨.hbm, 147, rfl⟩
abbrev main_cst_27 : Ref sig .tc := ⟨.hbm, 148, rfl⟩
abbrev main_v116 : Ref sig .tc := ⟨.hbm, 149, rfl⟩
abbrev main_cst_28 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_29 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_30 : Ref sig .tc := ⟨.hbm, 167, rfl⟩
abbrev main_v132 : Ref sig .tc := ⟨.hbm, 168, rfl⟩
abbrev main_v133 : Ref sig .tc := ⟨.hbm, 169, rfl⟩
abbrev main_cst_31 : Ref sig .tc := ⟨.hbm, 170, rfl⟩
abbrev main_v134 : Ref sig .tc := ⟨.hbm, 171, rfl⟩
abbrev main_v135 : Ref sig .tc := ⟨.hbm, 172, rfl⟩
abbrev main_cst_32 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_33 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_cst_34 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_cst_35 : Ref sig .tc := ⟨.hbm, 195, rfl⟩
abbrev main_v155 : Ref sig .tc := ⟨.hbm, 196, rfl⟩
abbrev main_v156 : Ref sig .tc := ⟨.hbm, 197, rfl⟩
abbrev main_cst_36 : Ref sig .tc := ⟨.hbm, 198, rfl⟩
abbrev main_v157 : Ref sig .tc := ⟨.hbm, 199, rfl⟩
abbrev main_v158 : Ref sig .tc := ⟨.hbm, 200, rfl⟩
abbrev main_cst_37 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_cst_38 : Ref sig .tc := ⟨.hbm, 206, rfl⟩
abbrev main_v163 : Ref sig .tc := ⟨.hbm, 207, rfl⟩
abbrev main_v164 : Ref sig .tc := ⟨.hbm, 208, rfl⟩
abbrev main_cst_39 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_cst_40 : Ref sig .tc := ⟨.hbm, 217, rfl⟩
abbrev main_v172 : Ref sig .tc := ⟨.hbm, 218, rfl⟩
abbrev main_v173 : Ref sig .tc := ⟨.hbm, 219, rfl⟩
abbrev main_cst_41 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_cst_42 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_cst_43 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_cst_44 : Ref sig .tc := ⟨.hbm, 235, rfl⟩
abbrev main_v186 : Ref sig .tc := ⟨.hbm, 236, rfl⟩
abbrev main_v187 : Ref sig .tc := ⟨.hbm, 237, rfl⟩
abbrev main_cst_45 : Ref sig .tc := ⟨.hbm, 238, rfl⟩
abbrev main_v188 : Ref sig .tc := ⟨.hbm, 239, rfl⟩
abbrev main_cst_46 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_cst_47 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_cst_48 : Ref sig .tc := ⟨.hbm, 258, rfl⟩
abbrev main_v205 : Ref sig .tc := ⟨.hbm, 259, rfl⟩
abbrev main_v206 : Ref sig .tc := ⟨.hbm, 260, rfl⟩
abbrev main_cst_49 : Ref sig .tc := ⟨.hbm, 261, rfl⟩
abbrev main_v207 : Ref sig .tc := ⟨.hbm, 262, rfl⟩
abbrev main_v208 : Ref sig .tc := ⟨.hbm, 263, rfl⟩
abbrev main_cst_50 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_cst_51 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩

abbrev nD : Nat := 1
abbrev τ : Topo := Topo.v7x

variable {F : FTy → Type} [FloatOps F]

class Facts₀ : Prop where
  bcast_S765_S1x765_1 : S765.BroadcastsInDim S1x765 (![1] : Fin 1 → Fin S1x765.rank)
  bcast_S1x765_S128x765_0_1 : S1x765.BroadcastsInDim S128x765 (![0, 1] : Fin 2 → Fin S128x765.rank)
  shapeCasts_S128x765_S128x5x153 : S128x765.ShapeCasts S128x5x153
  bcast_S1x765_S256x765_0_1 : S1x765.BroadcastsInDim S256x765 (![0, 1] : Fin 2 → Fin S256x765.rank)
  shapeCasts_S256x765_S256x5x153 : S256x765.ShapeCasts S256x5x153
  bcast_S128x5x153_S1x128x5x153_1_2_3 : S128x5x153.BroadcastsInDim S1x128x5x153 (![1, 2, 3] : Fin 3 → Fin S1x128x5x153.rank)
  bcast_S256x5x153_S256x1x5x153_0_2_3 : S256x5x153.BroadcastsInDim S256x1x5x153 (![0, 2, 3] : Fin 3 → Fin S256x1x5x153.rank)
  bcast_S_S256x128x5 : S_.BroadcastsInDim S256x128x5 (![] : Fin 0 → Fin S256x128x5.rank)
  reducesTo_S1x128x5x153_S1x128x5_d3 : S1x128x5x153.ReducesTo [3] S1x128x5
  h_S_ : 0 < S_.numel
  bcast_S1x128x5_S1x128x5x1_0_1_2 : S1x128x5.BroadcastsInDim S1x128x5x1 (![0, 1, 2] : Fin 3 → Fin S1x128x5x1.rank)
  bcast_S_S1x128x5x1 : S_.BroadcastsInDim S1x128x5x1 (![] : Fin 0 → Fin S1x128x5x1.rank)
  bcast_S1x128x5x1_S1x128x5x153_0_1_2_3 : S1x128x5x1.BroadcastsInDim S1x128x5x153 (![0, 1, 2, 3] : Fin 4 → Fin S1x128x5x153.rank)
  reducesTo_S256x1x5x153_S256x1x5_d3 : S256x1x5x153.ReducesTo [3] S256x1x5
  bcast_S256x1x5_S256x1x5x1_0_1_2 : S256x1x5.BroadcastsInDim S256x1x5x1 (![0, 1, 2] : Fin 3 → Fin S256x1x5x1.rank)
  bcast_S_S256x1x5x1 : S_.BroadcastsInDim S256x1x5x1 (![] : Fin 0 → Fin S256x1x5x1.rank)
  bcast_S256x1x5x1_S256x1x5x153_0_1_2_3 : S256x1x5x1.BroadcastsInDim S256x1x5x153 (![0, 1, 2, 3] : Fin 4 → Fin S256x1x5x153.rank)
  bcast_S1x128x5x153_S256x128x5x153_0_1_2_3 : S1x128x5x153.BroadcastsInDim S256x128x5x153 (![0, 1, 2, 3] : Fin 4 → Fin S256x128x5x153.rank)
  bcast_S256x1x5x153_S256x128x5x153_0_1_2_3 : S256x1x5x153.BroadcastsInDim S256x128x5x153 (![0, 1, 2, 3] : Fin 4 → Fin S256x128x5x153.rank)
  reducesTo_S256x128x5x153_S256x128x5_d3 : S256x128x5x153.ReducesTo [3] S256x128x5
  bcast_S1x128x5_S256x128x5_0_1_2 : S1x128x5.BroadcastsInDim S256x128x5 (![0, 1, 2] : Fin 3 → Fin S256x128x5.rank)
  bcast_S256x1x5_S256x128x5_0_1_2 : S256x1x5.BroadcastsInDim S256x128x5 (![0, 1, 2] : Fin 3 → Fin S256x128x5.rank)
  reducesTo_S256x128x5_S256x128_d2 : S256x128x5.ReducesTo [2] S256x128
  bcast_S_S256x128 : S_.BroadcastsInDim S256x128 (![] : Fin 0 → Fin S256x128.rank)
  bcast_S256x128_S256x128x1_0_1 : S256x128.BroadcastsInDim S256x128x1 (![0, 1] : Fin 2 → Fin S256x128x1.rank)
  bcast_S256x128x1_S256x128x5_0_1_2 : S256x128x1.BroadcastsInDim S256x128x5 (![0, 1, 2] : Fin 3 → Fin S256x128x5.rank)
  bcast_S256x128x5_S256x128x5x1_0_1_2 : S256x128x5.BroadcastsInDim S256x128x5x1 (![0, 1, 2] : Fin 3 → Fin S256x128x5x1.rank)
  bcast_S256x128x5x1_S256x128x5x153_0_1_2_3 : S256x128x5x1.BroadcastsInDim S256x128x5x153 (![0, 1, 2, 3] : Fin 4 → Fin S256x128x5x153.rank)
  reducesTo_S256x128x5x153_S256x5x153_d1 : S256x128x5x153.ReducesTo [1] S256x5x153
  reducesTo_S256x5x153_S256x5_d2 : S256x5x153.ReducesTo [2] S256x5
  bcast_S256x5_S256x5x1_0_1 : S256x5.BroadcastsInDim S256x5x1 (![0, 1] : Fin 2 → Fin S256x5x1.rank)
  bcast_S_S256x5x1 : S_.BroadcastsInDim S256x5x1 (![] : Fin 0 → Fin S256x5x1.rank)
  bcast_S256x5x1_S256x5x153_0_1_2 : S256x5x1.BroadcastsInDim S256x5x153 (![0, 1, 2] : Fin 3 → Fin S256x5x153.rank)
  bcast_S_S256x1x5x153 : S_.BroadcastsInDim S256x1x5x153 (![] : Fin 0 → Fin S256x1x5x153.rank)
  shapeCasts_S256x5x153_S256x765 : S256x5x153.ShapeCasts S256x765
  dot_S128x768_S768x765_S128x765_1_0_0_1_n_n_wf : DotDims.WF S128x768 S768x765 S128x765 [1] [0] [0] [1] [] []
  dot_S256x768_S768x765_S256x765_1_0_0_1_n_n_wf : DotDims.WF S256x768 S768x765 S256x765 [1] [0] [0] [1] [] []

variable [Facts₀]

def dot_S128x768_S768x765_S128x765_1_0_0_1_n_n : DotDims S128x768 S768x765 S128x765 where
  lhsContracting := [1]
  rhsContracting := [0]
  lhsNonContracting := [0]
  rhsNonContracting := [1]
  lhsBatch := []
  rhsBatch := []
  wf := dot_S128x768_S768x765_S128x765_1_0_0_1_n_n_wf
def dot_S256x768_S768x765_S256x765_1_0_0_1_n_n : DotDims S256x768 S768x765 S256x765 where
  lhsContracting := [1]
  rhsContracting := [0]
  lhsNonContracting := [0]
  rhsNonContracting := [1]
  lhsBatch := []
  rhsBatch := []
  wf := dot_S256x768_S768x765_S256x765_1_0_0_1_n_n_wf

class Facts : Prop extends Facts₀ where

variable [Facts]
-- ==== Proof.KBlocks.lean ====
/-
  The kernel's computation as a composition of a few blocks of vector operations, class by class and round by
  round: the centring of a row by its mean, the Pearson agreement (`corrK`), the softmax over the five classes
  (`softK`), the coupling-weighted sum of the memory rows (`mixK`), the squash (`squashK`), the inner products with the
  memory rows (`agreeK`), and one routing round (`stepK`) over the per-class state of logits, agreements and queries.
  `outK` is the third round's capsules of a class; it is the value the body stores for that class.
-/
import proofs.«160887_j12713103197275_1_alg».proof.Proof.Gen.KernelIdeal.Skeleton

noncomputable section

namespace Cert.KernelIdeal.Blocks

open Cert.KernelIdeal Cert.KernelIdeal.Gen Idealize.ShloMosaic

variable {F : FTy → Type} [FloatOps F]

/-- A memory row less its mean over the 153 features. -/
def cenM (x : FVec F S128x153 .f32) : FVec F S128x153 .f32 :=
  subf x (broadcastTo S128x153 (divf (shapeCast S128x1 (multiReduction .add [1] S128 x 0x00000000#32 reduces_S128x153_S128 (.inl rfl) rfl) shapeCasts_S128_S128x1)
    (broadcast S128x1 (Scalar.ofBits .f32 0x43190000#32))) broadcasts_S128x1_S128x153)

/-- A query row less its mean over the 153 features. -/
def cenQ (x : FVec F S256x153 .f32) : FVec F S256x153 .f32 :=
  subf x (broadcastTo S256x153 (divf (shapeCast S256x1 (multiReduction .add [1] S256 x 0x00000000#32 reduces_S256x153_S256 (.inl rfl) rfl) shapeCasts_S256_S256x1)
    (broadcast S256x1 (Scalar.ofBits .f32 0x43190000#32))) broadcasts_S256x1_S256x153)

/-- `tanh` of the Pearson correlation of every query row with every memory row. -/
def corrK (hm : FVec F S128x153 .f32) (q : FVec F S256x153 .f32) : FVec F S256x128 .f32 :=
  tanh (divf
    (matmul dot_S256x153_S153x128_S256x128_1_0_0_1_n_n none (cenQ q)
      (transpose S153x128 [1, 0] (cenM hm) transposes_S128x153_p1_0_S153x128) (constant S256x128 .f32 0x00000000#32))
    (addf
      (mulf
        (broadcastTo S256x128 (shapeCast S256x1 (sqrt (multiReduction .add [1] S256 (mulf (cenQ q) (cenQ q)) 0x00000000#32 reduces_S256x153_S256 (.inl rfl) rfl)) shapeCasts_S256_S256x1) broadcasts_S256x1_S256x128)
        (broadcastTo S256x128 (shapeCast S1x128 (sqrt (multiReduction .add [1] S128 (mulf (cenM hm) (cenM hm)) 0x00000000#32 reduces_S128x153_S128 (.inl rfl) rfl)) shapeCasts_S128_S1x128) broadcasts_S1x128_S256x128))
      (broadcast S256x128 (Scalar.ofBits .f32 0x322BCC77#32))))

/-- Logits at temperature one. -/
def tmpK (a : FVec F S256x128 .f32) : FVec F S256x128 .f32 :=
  divf a (broadcast S256x128 (Scalar.ofBits .f32 0x3F800000#32))

/-- The largest of the five classes' logits, entry by entry. -/
def maxK (t : Fin 5 → FVec F S256x128 .f32) : FVec F S256x128 .f32 :=
  maximumf (maximumf (maximumf (maximumf (t 0) (t 1)) (t 2)) (t 3)) (t 4)

def expK (t : Fin 5 → FVec F S256x128 .f32) (c : Fin 5) : FVec F S256x128 .f32 := exp (subf (t c) (maxK t))

def sumK (t : Fin 5 → FVec F S256x128 .f32) : FVec F S256x128 .f32 :=
  addf (addf (addf (addf (expK t 0) (expK t 1)) (expK t 2)) (expK t 3)) (expK t 4)

/-- The softmax over the five classes. -/
def softK (a : Fin 5 → FVec F S256x128 .f32) (c : Fin 5) : FVec F S256x128 .f32 :=
  divf (expK (fun c' => tmpK (a c')) c) (sumK (fun c' => tmpK (a c')))

/-- The coupling-weighted sum of the memory rows. -/
def mixK (w : FVec F S256x128 .f32) (hm : FVec F S128x153 .f32) : FVec F S256x153 .f32 :=
  matmul dot_S256x128_S128x153_S256x153_1_0_0_1_n_n none w hm (constant S256x153 .f32 0x00000000#32)

/-- The squared length of every row, as a column. -/
def sqK (s : FVec F S256x153 .f32) : FVec F S256x1 .f32 :=
  shapeCast S256x1 (multiReduction .add [1] S256 (mulf s s) 0x00000000#32 reduces_S256x153_S256 (.inl rfl) rfl) shapeCasts_S256_S256x1

/-- The capsule squash. -/
def squashK (s : FVec F S256x153 .f32) : FVec F S256x153 .f32 :=
  divf
    (mulf (broadcastTo S256x153 (divf (sqK s) (addf (broadcast S256x1 (Scalar.ofBits .f32 0x3F800000#32)) (sqK s))) broadcasts_S256x1_S256x153) s)
    (broadcastTo S256x153 (sqrt (addf (sqK s) (broadcast S256x1 (Scalar.ofBits .f32 0x322BCC77#32)))) broadcasts_S256x1_S256x153)

/-- The inner product of every output row with every memory row. -/
def agreeK (v : FVec F S256x153 .f32) (hm : FVec F S128x153 .f32) : FVec F S256x128 .f32 :=
  matmul dot_S256x153_S153x128_S256x128_1_0_0_1_n_n none v
    (transpose S153x128 [1, 0] hm transposes_S128x153_p1_0_S153x128) (constant S256x128 .f32 0x00000000#32)

/-- What a round carries, per class: logits, agreements, the queries' current features. -/
structure KSt (F : FTy → Type) [FloatOps F] where
  a : Fin 5 → FVec F S256x128 .f32
  p : Fin 5 → FVec F S256x128 .f32
  q : Fin 5 → FVec F S256x153 .f32

/-- A round's output capsules of class `c`. -/
def capsK (hm : Fin 5 → FVec F S128x153 .f32) (st : KSt F) (c : Fin 5) : FVec F S256x153 .f32 :=
  squashK (mixK (addf (softK st.a c) (st.p c)) (hm c))

/-- The queries' features averaged with the round's capsules. -/
def blendK (hm : Fin 5 → FVec F S128x153 .f32) (st : KSt F) (c : Fin 5) : FVec F S256x153 .f32 :=
  mulf (addf (st.q c) (capsK hm st c)) (broadcast S256x153 (Scalar.ofBits .f32 0x3F000000#32))

/-- One round. -/
def stepK (hm : Fin 5 → FVec F S128x153 .f32) (st : KSt F) : KSt F where
  a c := addf (st.a c) (mulf (st.p c) (agreeK (capsK hm st c) (hm c)))
  p c := corrK (hm c) (blendK hm st c)
  q c := blendK hm st c

/-- Before the first round. -/
def startK (hm : Fin 5 → FVec F S128x153 .f32) (hq : Fin 5 → FVec F S256x153 .f32) : KSt F where
  a _ := broadcast S256x128 (Scalar.ofBits .f32 0x00000000#32)
  p c := corrK (hm c) (hq c)
  q := hq

/-- The projected memory rows' features of class `c`: a band of 153 columns of `m·W + b`. -/
def hmK (v0 : Vec F S128x768 .f32) (v2 : Vec F S768x765 .f32) (v3 : Vec F S765 .f32) (c : Fin 5) : FVec F S128x153 .f32 :=
  match c with
  | 0 => k0_pay4 v0 v2 v3
  | 1 => k0_pay5 v0 v2 v3
  | 2 => k0_pay6 v0 v2 v3
  | 3 => k0_pay7 v0 v2 v3
  | 4 => k0_pay8 v0 v2 v3

/-- The projected queries' features of class `c`. -/
def hqK (v1 : Vec F S256x768 .f32) (v2 : Vec F S768x765 .f32) (v3 : Vec F S765 .f32) (c : Fin 5) : FVec F S256x153 .f32 :=
  match c with
  | 0 => k0_pay9 v1 v2 v3
  | 1 => k0_pay10 v1 v2 v3
  | 2 => k0_pay11 v1 v2 v3
  | 3 => k0_pay12 v1 v2 v3
  | 4 => k0_pay13 v1 v2 v3

/-- The third round's capsules of class `c`. -/
def outK (v0 : Vec F S128x768 .f32) (v1 : Vec F S256x768 .f32) (v2 : Vec F S768x765 .f32) (v3 : Vec F S765 .f32) (c : Fin 5) :
    FVec F S256x153 .f32 :=
  capsK (hmK v0 v2 v3) (stepK (hmK v0 v2 v3) (stepK (hmK v0 v2 v3) (startK (hmK v0 v2 v3) (hqK v1 v2 v3)))) c

end Cert.KernelIdeal.Blocks

end
-- ==== Proof.KTree.lean ====
/-
  The body's five stores, class by class, hold the third round's capsules: the value the body computes for each
  class's band of columns, written out operation by operation, IS the composition of the blocks (`Blocks.outK`) applied to
  the four loaded argument blocks. Both sides are the same vector operations in the same order, so the equation holds by
  unfolding definitions.
-/
import proofs.«160887_j12713103197275_1_alg».proof.Proof.Gen.KernelIdeal.Frame
import proofs.«160887_j12713103197275_1_alg».proof.Proof.KBlocks
import Idealize.ShloMosaic.Lib.Tactic

noncomputable section

namespace Cert.KernelIdeal.Blocks

open Cert.KernelIdeal Cert.KernelIdeal.Gen Idealize.ShloMosaic Idealize.ShloMosaic.Tactic

variable {F : FTy → Type} [FloatOps F]

set_option maxRecDepth 65536 in
/-- After the body, the output buffer holds, in the band of class `c`, `outK … c` of the loaded blocks. -/
theorem out0_4_eq (x0 : Vec F S128x768 .f32) (x1 : Vec F S256x768 .f32) (x2 : Vec F S768x765 .f32) (x3 : Vec F S765 .f32) :
    out0_4 x0 x1 x2 x3 = View.canon
      [⟨r0_8, outK (View.ld x0 r0_0) (View.ld x1 r0_1) (View.ld x2 r0_2) (View.ld x3 r0_3) 4⟩,
       ⟨r0_7, outK (View.ld x0 r0_0) (View.ld x1 r0_1) (View.ld x2 r0_2) (View.ld x3 r0_3) 3⟩,
       ⟨r0_6, outK (View.ld x0 r0_0) (View.ld x1 r0_1) (View.ld x2 r0_2) (View.ld x3 r0_3) 2⟩,
       ⟨r0_5, outK (View.ld x0 r0_0) (View.ld x1 r0_1) (View.ld x2 r0_2) (View.ld x3 r0_3) 1⟩,
       ⟨r0_4, outK (View.ld x0 r0_0) (View.ld x1 r0_1) (View.ld x2 r0_2) (View.ld x3 r0_3) 0⟩] := by
  sl_kernel_rfl

end Cert.KernelIdeal.Blocks

end
-- ==== Proof.Spec.lean ====
/-
  Capsule routing with Pearson agreement, as ONE function of the four argument arrays over the extended reals.

  The memory rows `m` (128 × 768) and the query rows `q` (256 × 768) are projected by `x ↦ x·W + b` to 765 = 5 × 153
  columns: five classes of 153 features. Class by class, three rounds compute
    p  = tanh of the Pearson correlation of a query's current features with each memory row's features
         (both centred by their mean over the 153 features, the product of the two norms increased by ε),
    δ  = the softmax over the five classes of the routing logits,
    v  = squash of  Σ_i (δ + p)(r, i) · m̂(i, ·),        squash s = (|s|² / (1 + |s|²)) · s / √(|s|² + ε),
  and between rounds the logits grow by  p · ⟨v, m̂(i, ·)⟩  and the query's features are averaged with `v`.
  The result is the third round's `v`, class `c` in columns 153 c … 153 c + 152.
-/
import Idealize.ShloMosaic.PureOps.Ideal
import Idealize.ShloMosaic.Lib.ValueIdx

noncomputable section

open scoped BigOperators

namespace Cert.Routing

open Idealize.ShloMosaic Idealize.ShloMosaic.ValueIdx

/-- The four literals of the computation, kept as the binary words both programs write: ε = 1e-8, 1, 1/2, 153, and 0. -/
def eps : EReal := Ideal.ofBits .f32 0x322BCC77#32
def one : EReal := Ideal.ofBits .f32 0x3F800000#32
def half : EReal := Ideal.ofBits .f32 0x3F000000#32
def feat : EReal := Ideal.ofBits .f32 0x43190000#32
def zero : EReal := Ideal.ofBits .f32 0x00000000#32

/-- The affine projection `x·W + b` of `n` rows. -/
def proj {n : ℕ} (X : Fin n → Fin 768 → EReal) (W : Fin 768 → Fin 765 → EReal) (B : Fin 765 → EReal) :
    Fin n → Fin 765 → EReal := fun r j => (∑ k, X r k * W k j) + B j

/-- Feature `d` of class `c` is column `153 c + d`. -/
def col (c : Fin 5) (d : Fin 153) : Fin 765 := ⟨153 * c.val + d.val, by have := c.isLt; have := d.isLt; omega⟩

/-- The 153 features of class `c`. -/
def cls {n : ℕ} (H : Fin n → Fin 765 → EReal) (c : Fin 5) : Fin n → Fin 153 → EReal := fun r d => H r (col c d)

/-- A row less its mean over the 153 features. -/
def center {n : ℕ} (x : Fin n → Fin 153 → EReal) : Fin n → Fin 153 → EReal :=
  fun r d => x r d - Ideal.div (∑ k, x r k) feat

/-- `tanh` of the Pearson correlation of query row `r` with memory row `i`. -/
def corr (hm : Fin 128 → Fin 153 → EReal) (q : Fin 256 → Fin 153 → EReal) : Fin 256 → Fin 128 → EReal := fun r i =>
  Ideal.tanh (Ideal.div (∑ d, center q r d * center hm i d)
    (Ideal.sqrt (∑ d, center q r d * center q r d) * Ideal.sqrt (∑ d, center hm i d * center hm i d) + eps))

/-- The largest of five numbers. -/
def max5 (t : Fin 5 → EReal) : EReal := max (max (max (max (t 0) (t 1)) (t 2)) (t 3)) (t 4)

/-- The logits of one (query, memory row) pair at temperature one. -/
def temp (A : Fin 5 → Fin 256 → Fin 128 → EReal) (r : Fin 256) (i : Fin 128) : Fin 5 → EReal :=
  fun c => Ideal.div (A c r i) one

/-- The softmax over the five classes, shifted by the largest logit. -/
def soft (A : Fin 5 → Fin 256 → Fin 128 → EReal) (c : Fin 5) : Fin 256 → Fin 128 → EReal := fun r i =>
  Ideal.div (Ideal.exp (temp A r i c - max5 (temp A r i)))
    (∑ c' : Fin 5, Ideal.exp (temp A r i c' - max5 (temp A r i)))

/-- The coupling-weighted sum of the memory rows. -/
def mix (w : Fin 256 → Fin 128 → EReal) (hm : Fin 128 → Fin 153 → EReal) : Fin 256 → Fin 153 → EReal :=
  fun r d => ∑ i, w r i * hm i d

/-- The squared length of a row. -/
def sq (s : Fin 256 → Fin 153 → EReal) (r : Fin 256) : EReal := ∑ d, s r d * s r d

/-- The capsule squash. -/
def squash (s : Fin 256 → Fin 153 → EReal) : Fin 256 → Fin 153 → EReal := fun r d =>
  Ideal.div (Ideal.div (sq s r) (one + sq s r) * s r d) (Ideal.sqrt (sq s r + eps))

/-- The inner product of an output row with a memory row. -/
def agree (v : Fin 256 → Fin 153 → EReal) (hm : Fin 128 → Fin 153 → EReal) : Fin 256 → Fin 128 → EReal :=
  fun r i => ∑ d, v r d * hm i d

/-- What a round carries: the logits `a`, the agreements `p` and the queries' current features `q`, per class. -/
structure St where
  a : Fin 5 → Fin 256 → Fin 128 → EReal
  p : Fin 5 → Fin 256 → Fin 128 → EReal
  q : Fin 5 → Fin 256 → Fin 153 → EReal

/-- A round's output capsules of class `c`. -/
def caps (hm : Fin 5 → Fin 128 → Fin 153 → EReal) (st : St) (c : Fin 5) : Fin 256 → Fin 153 → EReal :=
  squash (mix (fun r i => soft st.a c r i + st.p c r i) (hm c))

/-- The queries' features averaged with the round's capsules. -/
def blend (hm : Fin 5 → Fin 128 → Fin 153 → EReal) (st : St) (c : Fin 5) : Fin 256 → Fin 153 → EReal :=
  fun r d => (st.q c r d + caps hm st c r d) * half

/-- One round. -/
def step (hm : Fin 5 → Fin 128 → Fin 153 → EReal) (st : St) : St where
  a c := fun r i => st.a c r i + st.p c r i * agree (caps hm st c) (hm c) r i
  p c := corr (hm c) (blend hm st c)
  q c := blend hm st c

/-- Before the first round: zero logits, the agreements of the projected queries. -/
def start (hm : Fin 5 → Fin 128 → Fin 153 → EReal) (hq : Fin 5 → Fin 256 → Fin 153 → EReal) : St where
  a _ := fun _ _ => zero
  p c := corr (hm c) (hq c)
  q := hq

/-- The result: the third round's capsules, by query, class and feature. -/
def out (M : Fin 128 → Fin 768 → EReal) (Q : Fin 256 → Fin 768 → EReal) (W : Fin 768 → Fin 765 → EReal)
    (B : Fin 765 → EReal) : Fin 5 → Fin 256 → Fin 153 → EReal :=
  caps (cls (proj M W B)) (step (cls (proj M W B)) (step (cls (proj M W B)) (start (cls (proj M W B)) (cls (proj Q W B)))))

/-- An array of rank two, or one, as a function of its coordinates. -/
def cur2 {a b : ℕ} (X : (⟨2, ![a, b]⟩ : Shape).Idx → EReal) : Fin a → Fin b → EReal := fun r i => X (ix2 r i)
def cur1 {a : ℕ} (X : (⟨1, ![a]⟩ : Shape).Idx → EReal) : Fin a → EReal := fun i => X (ix1 i)

/-- The class and the feature of a result column. -/
def clsOf (j : Fin 765) : Fin 5 := ⟨j.val / 153, by have := j.isLt; omega⟩
def featOf (j : Fin 765) : Fin 153 := ⟨j.val % 153, Nat.mod_lt _ (by decide)⟩

/-- THE RESULT ARRAY, 256 × 765, as one function of the four argument arrays. -/
def G (M : (⟨2, ![128, 768]⟩ : Shape).Idx → EReal) (Q : (⟨2, ![256, 768]⟩ : Shape).Idx → EReal)
    (W : (⟨2, ![768, 765]⟩ : Shape).Idx → EReal) (B : (⟨1, ![765]⟩ : Shape).Idx → EReal) :
    (⟨2, ![256, 765]⟩ : Shape).Idx → EReal :=
  fun j => out (cur2 M) (cur2 Q) (cur2 W) (cur1 B) (clsOf (j 1)) (j 0) (featOf (j 1))

end Cert.Routing

end
-- ==== Proof.LibColumnLayout.lean ====
/-
  Two layout readings of a column, for arrays of any extents: a vector `[a]` reshaped to a column `[a, 1]` holds the
  vector's entry `i` at `(i, 0)`, and a column `[a, 1]` broadcast along a second axis to `[a, b]` holds at `(p, c)` the
  column's entry of row `p`. (The row forms `[a] → [1, a]` and `[1, b] → [a, b]` are in the library's layout file.)
-/
import Idealize.ShloMosaic.Lib.ValueIdx
import Idealize.ShloMosaic.Lib.ValueLayout
import Idealize.ShloMosaic.Lib.Pipeline.Value

namespace Cert.Gcn.Layout

open Idealize.ShloMosaic Idealize.ShloMosaic.ValueIdx

/-- A column `[a, 1]` broadcast along the rows' features to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to a column `[a, 1]` reads, at `(i, u)`, the operand at `i`, whatever the unit coordinate. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Gcn.Layout
-- ==== Proof.LibPlainDot.lean ====
/-
  A plain matrix product — rows × contraction times contraction × columns, one contracted axis, no batch axis — read at
  an index, for arbitrary extents and any record of dimension numbers of that form (the form is a hypothesis,
  `IsPlain`, which a literal record meets by `rfl`s). At the exact values both the host's product and a tile product
  accumulated into zero are the plain sum over the contracted coordinate, `∑ k, x (r, k) · w (k, c)`. Consequence: a
  block of rows of a product is the product of that block of rows (`matmul_rows_eq_dotGeneral`).
-/
import Idealize.ShloMosaic.Lib.ValueIdx
import Idealize.ShloMosaic.PureOps.Ideal.Laws

noncomputable section

open scoped BigOperators

namespace Cert.Gcn.PlainDot

open Idealize.ShloMosaic Idealize.ShloMosaic.ValueIdx

variable {M K N : ℕ}

/-- The dimension numbers of a plain product of an `[M, K]` by a `[K, N]` array: axis 1 of the left operand contracted
    with axis 0 of the right one, the rows and the columns kept in that order, no batch axis. -/
structure IsPlain (d : DotDims ⟨2, ![M, K]⟩ ⟨2, ![K, N]⟩ ⟨2, ![M, N]⟩) : Prop where
  lc : d.lhsContracting = [⟨1, Nat.one_lt_two⟩]
  rc : d.rhsContracting = [⟨0, Nat.zero_lt_two⟩]
  ln : d.lhsNonContracting = [⟨0, Nat.zero_lt_two⟩]
  rn : d.rhsNonContracting = [⟨1, Nat.one_lt_two⟩]
  lb : d.lhsBatch = []
  rb : d.rhsBatch = []
  cr : d.contr.rank = 1
  cs : d.contr.size ⟨0, by omega⟩ = K

variable {d : DotDims ⟨2, ![M, K]⟩ ⟨2, ![K, N]⟩ ⟨2, ![M, N]⟩}

private theorem coord_congr {s : Shape} (j : s.Idx) (p p' : ℕ) (hp : p < s.rank) (hp' : p' < s.rank) (h : p = p') :
    (j ⟨p, hp⟩).val = (j ⟨p', hp'⟩).val := by subst h; rfl

/-- The left operand's index at result index `j` and contraction position `q`: row `j 0`, column the position. -/
theorem lhsIdx_eq (hd : IsPlain d) (j : (⟨2, ![M, N]⟩ : Shape).Idx) (q : d.contr.Idx) (k : Fin K)
    (hq : (q ⟨0, by rw [hd.cr]; exact Nat.one_pos⟩).val = k.val) : d.lhsIdx j q = ix2 (j 0) k := by
  funext a
  apply Fin.ext
  match a with
  | ⟨0, h0⟩ =>
    have hb : (⟨0, h0⟩ : Fin (⟨2, ![M, K]⟩ : Shape).rank) ∉ d.lhsBatch := by rw [hd.lb]; exact List.not_mem_nil
    have hn : (⟨0, h0⟩ : Fin (⟨2, ![M, K]⟩ : Shape).rank) ∈ d.lhsNonContracting := by
      rw [hd.ln]; exact List.mem_singleton.mpr rfl
    unfold DotDims.lhsIdx
    rw [dif_neg hb, dif_pos hn]
    simp only [Fin.val_cast]
    exact coord_congr j _ _ _ _ (by rw [hd.lb, hd.ln]; rfl)
  | ⟨1, h1⟩ => exact (d.lhsIdx_val_of_single hd.lc j q).trans hq

/-- The right operand's index at result index `j` and contraction position `q`: row the position, column `j 1`. -/
theorem rhsIdx_eq (hd : IsPlain d) (j : (⟨2, ![M, N]⟩ : Shape).Idx) (q : d.contr.Idx) (k : Fin K)
    (hq : (q ⟨0, by rw [hd.cr]; exact Nat.one_pos⟩).val = k.val) : d.rhsIdx j q = ix2 k (j 1) := by
  funext a
  apply Fin.ext
  match a with
  | ⟨0, h0⟩ => exact (d.rhsIdx_val_of_single hd.rc j q).trans hq
  | ⟨1, h1⟩ =>
    have hb : (⟨1, h1⟩ : Fin (⟨2, ![K, N]⟩ : Shape).rank) ∉ d.rhsBatch := by rw [hd.rb]; exact List.not_mem_nil
    have hn : (⟨1, h1⟩ : Fin (⟨2, ![K, N]⟩ : Shape).rank) ∈ d.rhsNonContracting := by
      rw [hd.rn]; exact List.mem_singleton.mpr rfl
    unfold DotDims.rhsIdx
    rw [dif_neg hb, dif_pos hn]
    simp only [Fin.val_cast]
    exact coord_congr j _ _ _ _ (by rw [hd.lb, hd.ln, hd.rn]; rfl)

/-- The sum over the contraction positions of a plain product is the sum over the contracted coordinate. -/
theorem sum_contr (hd : IsPlain d) (j : (⟨2, ![M, N]⟩ : Shape).Idx) (x : (⟨2, ![M, K]⟩ : Shape).Idx → EReal)
    (w : (⟨2, ![K, N]⟩ : Shape).Idx → EReal) :
    ∑ q : d.contr.Idx, x (d.lhsIdx j q) * w (d.rhsIdx j q) = ∑ k : Fin K, x (ix2 (j 0) k) * w (ix2 k (j 1)) := by
  rw [← Equiv.sum_comp (contrEquiv1 d K hd.cr hd.cs).symm]
  refine Finset.sum_congr rfl fun k _ => ?_
  have hk := contrEquiv1_symm_val d K hd.cr hd.cs k
  rw [lhsIdx_eq hd j _ k hk, rhsIdx_eq hd j _ k hk]
  rfl

/-- The host's plain product at `(r, c)`, exactly: `∑ k, x (r, k) · w (k, c)`. -/
theorem dotGeneral_apply (hd : IsPlain d) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    Host.dotGeneral d prec x w j = ∑ k : Fin K, (x (ix2 (j 0) k) : EReal) * (w (ix2 k (j 1)) : EReal) := by
  simp only [Host.dotGeneral]
  rw [Ideal.dotGeneral_apply]
  exact sum_contr hd j x w

/-- A tile product accumulated into the zero tile, at `(r, c)`, exactly: the same sum. -/
theorem matmul_zero_apply (hd : IsPlain d) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    matmul d prec x w (constant ⟨2, ![M, N]⟩ .f32 0x00000000#32) j
      = ∑ k : Fin K, (x (ix2 (j 0) k) : EReal) * (w (ix2 k (j 1)) : EReal) := by
  simp only [matmul]
  rw [Ideal.matmul_constant_zero_apply]
  exact sum_contr hd j x w

/-- A BLOCK OF ROWS OF A PRODUCT IS THE PRODUCT OF THE BLOCK OF ROWS: if row `p` of the tile `xb` is row `r` of the
    array `x`, and the tile `wb` is the array `w`, then the tile product into zero at `(p, c)` is the host's product
    of the whole arrays at `(r, c)` — the contraction runs over the whole shared axis on both sides. -/
theorem matmul_rows_eq_dotGeneral {B : ℕ} {dB : DotDims ⟨2, ![B, K]⟩ ⟨2, ![K, N]⟩ ⟨2, ![B, N]⟩} (hB : IsPlain dB)
    (hd : IsPlain d) {φ₁ φ₂ ψ₁ ψ₂ : FTy} (prec prec' : Option ContractPrecision)
    (xb : FVec Ideal ⟨2, ![B, K]⟩ φ₁) (wb : FVec Ideal ⟨2, ![K, N]⟩ φ₂)
    (x : FVec Ideal ⟨2, ![M, K]⟩ ψ₁) (w : FVec Ideal ⟨2, ![K, N]⟩ ψ₂) (p : Fin B) (r : Fin M) (c : Fin N)
    (hx : ∀ k : Fin K, (xb (ix2 p k) : EReal) = x (ix2 r k)) (hw : ∀ k : Fin K, (wb (ix2 k c) : EReal) = w (ix2 k c)) :
    matmul dB prec xb wb (constant ⟨2, ![B, N]⟩ .f32 0x00000000#32) (ix2 p c) = Host.dotGeneral d prec' x w (ix2 r c) := by
  rw [matmul_zero_apply hB, dotGeneral_apply hd]
  exact Finset.sum_congr rfl fun k _ => by
    show (xb (ix2 p k) : EReal) * wb (ix2 k c) = x (ix2 r k) * w (ix2 k c)
    rw [hx k, hw k]

end Cert.Gcn.PlainDot
-- ==== Proof.KRead.lean ====
/-
  Each block of the kernel's computation, read index by index over the extended reals, is the specification's function
  of the same name of its operands read the same way: a row sum of vector operations is the finite sum over the 153
  features, a tile product accumulated into zero is the sum over the contracted coordinate, a column broadcast repeats a
  row's number along the row. So the composition `outK` read at (query r, feature d) is `Routing.out` of the four argument
  blocks at (class, r, d).
-/
import proofs.«160887_j12713103197275_1_alg».proof.Proof.KBlocks
import proofs.«160887_j12713103197275_1_alg».proof.Proof.Spec
import proofs.«160887_j12713103197275_1_alg».proof.Proof.LibColumnLayout
import proofs.«160887_j12713103197275_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Blocks

open Cert.KernelIdeal Cert.KernelIdeal.Gen Idealize.ShloMosaic Idealize.ShloMosaic.ValueIdx
open Cert.Routing Cert.Gcn.Layout Cert.Gcn.PlainDot

/-! ## Pointwise operations and coordinates -/

theorem tanh_at {s : Shape} (x : FVec Ideal s .f32) (i : s.Idx) : tanh x i = Ideal.tanh (x i) := rfl
theorem sqrt_at {s : Shape} (x : FVec Ideal s .f32) (i : s.Idx) : sqrt x i = Ideal.sqrt (x i) := rfl
theorem exp_at {s : Shape} (x : FVec Ideal s .f32) (i : s.Idx) : exp x i = Ideal.exp (x i) := rfl
theorem ix2_fst {a b : ℕ} (r : Fin a) (i : Fin b) : ix2 r i 0 = r := rfl
theorem ix2_snd {a b : ℕ} (r : Fin a) (i : Fin b) : ix2 r i 1 = i := rfl

/-! ## Row sums -/

/-- The sum of a 256 × 153 array along its rows, at row `r`. -/
theorem rowSumQ (x : FVec Ideal S256x153 .f32) (r : Fin 256) :
    multiReduction .add [1] S256 x 0x00000000#32 reduces_S256x153_S256 (.inl rfl) rfl (ix1 r) = ∑ k : Fin 153, x (ix2 r k) :=
  (Ideal.multiReduction_add_single x 0x00000000#32 reduces_S256x153_S256 (.inl rfl) rfl (ix1 r)).trans
    (Finset.sum_congr rfl fun k _ => congrArg x (funext fun ax => by match ax with | ⟨0, _⟩ => rfl | ⟨1, _⟩ => rfl))

/-- The sum of a 128 × 153 array along its rows, at row `i`. -/
theorem rowSumM (x : FVec Ideal S128x153 .f32) (i : Fin 128) :
    multiReduction .add [1] S128 x 0x00000000#32 reduces_S128x153_S128 (.inl rfl) rfl (ix1 i) = ∑ k : Fin 153, x (ix2 i k) :=
  (Ideal.multiReduction_add_single x 0x00000000#32 reduces_S128x153_S128 (.inl rfl) rfl (ix1 i)).trans
    (Finset.sum_congr rfl fun k _ => congrArg x (funext fun ax => by match ax with | ⟨0, _⟩ => rfl | ⟨1, _⟩ => rfl))

/-! ## The four products are plain -/

theorem plain_corr : IsPlain dot_S256x153_S153x128_S256x128_1_0_0_1_n_n := ⟨rfl, rfl, rfl, rfl, rfl, rfl, rfl, rfl⟩
theorem plain_mix : IsPlain dot_S256x128_S128x153_S256x153_1_0_0_1_n_n := ⟨rfl, rfl, rfl, rfl, rfl, rfl, rfl, rfl⟩
theorem plain_projM : IsPlain dot_S128x768_S768x765_S128x765_1_0_0_1_n_n := ⟨rfl, rfl, rfl, rfl, rfl, rfl, rfl, rfl⟩
theorem plain_projQ : IsPlain dot_S256x768_S768x765_S256x765_1_0_0_1_n_n := ⟨rfl, rfl, rfl, rfl, rfl, rfl, rfl, rfl⟩

/-! ## The blocks -/

theorem cenM_at (x : FVec Ideal S128x153 .f32) (i : Fin 128) (d : Fin 153) :
    cenM x (ix2 i d) = center (cur2 x) i d := by
  unfold cenM
  rw [subf_apply, broadcastTo_a1_ab_apply, divf_apply, shapeCast_a_a1_apply, rowSumM]
  rfl

theorem cenQ_at (x : FVec Ideal S256x153 .f32) (r : Fin 256) (d : Fin 153) :
    cenQ x (ix2 r d) = center (cur2 x) r d := by
  unfold cenQ
  rw [subf_apply, broadcastTo_a1_ab_apply, divf_apply, shapeCast_a_a1_apply, rowSumQ]
  rfl

theorem corrK_cur (hm : FVec Ideal S128x153 .f32) (q : FVec Ideal S256x153 .f32) :
    cur2 (corrK hm q) = corr (cur2 hm) (cur2 q) := by
  funext r i
  show corrK hm q (ix2 r i) = _
  unfold corrK
  rw [tanh_at, divf_apply, addf_apply, mulf_apply, broadcastTo_a1_ab_apply, broadcastTo_1b_ab_apply,
    shapeCast_a_a1_apply, shapeCast_a_1a_apply, sqrt_at, sqrt_at, rowSumQ, rowSumM, matmul_zero_apply plain_corr]
  have ht : ∀ x : Fin 153, transpose S153x128 [1, 0] (cenM hm) transposes_S128x153_p1_0_S153x128 (ix2 x i) = cenM hm (ix2 i x) :=
    fun x => transpose_ix2_apply (cenM hm) transposes_S128x153_p1_0_S153x128 x i
  simp only [mulf_apply, ht, ix2_fst, ix2_snd, cenM_at, cenQ_at]
  rfl

theorem softK_cur (a : Fin 5 → FVec Ideal S256x128 .f32) (c : Fin 5) :
    cur2 (softK a c) = soft (fun c' => cur2 (a c')) c := by
  funext r i
  show _ = Ideal.div _ (∑ c' : Fin 5, _)
  rw [Fin.sum_univ_five]
  rfl

theorem mixK_cur (w : FVec Ideal S256x128 .f32) (hm : FVec Ideal S128x153 .f32) :
    cur2 (mixK w hm) = mix (cur2 w) (cur2 hm) := by
  funext r d
  exact matmul_zero_apply plain_mix none w hm (ix2 r d)

theorem sqK_at (s : FVec Ideal S256x153 .f32) (r : Fin 256) (u : Fin 1) : sqK s (ix2 r u) = sq (cur2 s) r := by
  unfold sqK
  rw [shapeCast_a_a1_apply, rowSumQ]
  rfl

theorem squashK_cur (s : FVec Ideal S256x153 .f32) : cur2 (squashK s) = squash (cur2 s) := by
  funext r d
  show squashK s (ix2 r d) = _
  unfold squashK
  rw [divf_apply, mulf_apply, broadcastTo_a1_ab_apply, broadcastTo_a1_ab_apply, divf_apply, sqrt_at, addf_apply, addf_apply,
    sqK_at]
  rfl

theorem agreeK_cur (v : FVec Ideal S256x153 .f32) (hm : FVec Ideal S128x153 .f32) :
    cur2 (agreeK v hm) = agree (cur2 v) (cur2 hm) := by
  funext r i
  show agreeK v hm (ix2 r i) = _
  unfold agreeK
  rw [matmul_zero_apply plain_corr]
  have ht : ∀ x : Fin 153, transpose S153x128 [1, 0] hm transposes_S128x153_p1_0_S153x128 (ix2 x i) = hm (ix2 i x) :=
    fun x => transpose_ix2_apply hm transposes_S128x153_p1_0_S153x128 x i
  simp only [ht, ix2_fst, ix2_snd]
  rfl

/-! ## The rounds -/

/-- A round's state read entry by entry. -/
def curSt (st : KSt Ideal) : St := ⟨fun c => cur2 (st.a c), fun c => cur2 (st.p c), fun c => cur2 (st.q c)⟩

theorem capsK_cur (hm : Fin 5 → FVec Ideal S128x153 .f32) (st : KSt Ideal) (c : Fin 5) :
    cur2 (capsK hm st c) = caps (fun c' => cur2 (hm c')) (curSt st) c := by
  unfold capsK caps
  rw [squashK_cur, mixK_cur]
  congr 2
  funext r i
  show softK st.a c (ix2 r i) + st.p c (ix2 r i) = _
  exact congrArg (· + st.p c (ix2 r i)) (congrFun (congrFun (softK_cur st.a c) r) i)

theorem blendK_cur (hm : Fin 5 → FVec Ideal S128x153 .f32) (st : KSt Ideal) (c : Fin 5) :
    cur2 (blendK hm st c) = blend (fun c' => cur2 (hm c')) (curSt st) c := by
  funext r d
  show (st.q c (ix2 r d) + capsK hm st c (ix2 r d)) * half = _
  exact congrArg (fun z => (st.q c (ix2 r d) + z) * half) (congrFun (congrFun (capsK_cur hm st c) r) d)

theorem stepK_cur (hm : Fin 5 → FVec Ideal S128x153 .f32) (st : KSt Ideal) :
    curSt (stepK hm st) = step (fun c' => cur2 (hm c')) (curSt st) := by
  unfold curSt stepK step
  congr 1
  · funext c r i
    show st.a c (ix2 r i) + st.p c (ix2 r i) * agreeK (capsK hm st c) (hm c) (ix2 r i) = _
    have h := congrFun (congrFun (agreeK_cur (capsK hm st c) (hm c)) r) i
    rw [capsK_cur] at h
    exact congrArg (fun z => st.a c (ix2 r i) + st.p c (ix2 r i) * z) h
  · funext c
    show cur2 (corrK (hm c) (blendK hm st c)) = _
    rw [corrK_cur, blendK_cur]
    rfl
  · funext c
    exact blendK_cur hm st c

theorem startK_cur (hm : Fin 5 → FVec Ideal S128x153 .f32) (hq : Fin 5 → FVec Ideal S256x153 .f32) :
    curSt (startK hm hq) = start (fun c' => cur2 (hm c')) (fun c' => cur2 (hq c')) := by
  unfold curSt startK start
  congr 1
  funext c
  exact corrK_cur (hm c) (hq c)

/-! ## The projections and their class bands -/

theorem projM_at (v0 : FVec Ideal S128x768 .f32) (v2 : FVec Ideal S768x765 .f32) (v3 : FVec Ideal S765 .f32) (i : Fin 128) (j : Fin 765) :
    k0_pay2 (F := Ideal) v0 v2 v3 (ix2 i j) = proj (cur2 v0) (cur2 v2) (cur1 v3) i j := by
  unfold k0_pay2
  rw [addf_apply, matmul_zero_apply plain_projM, broadcastTo_1b_ab_apply, shapeCast_a_1a_apply]
  rfl

theorem projQ_at (v1 : FVec Ideal S256x768 .f32) (v2 : FVec Ideal S768x765 .f32) (v3 : FVec Ideal S765 .f32) (r : Fin 256) (j : Fin 765) :
    k0_pay3 (F := Ideal) v1 v2 v3 (ix2 r j) = proj (cur2 v1) (cur2 v2) (cur1 v3) r j := by
  unfold k0_pay3
  rw [addf_apply, matmul_zero_apply plain_projQ, broadcastTo_1b_ab_apply, shapeCast_a_1a_apply]
  rfl

theorem hmK_cur (v0 : FVec Ideal S128x768 .f32) (v2 : FVec Ideal S768x765 .f32) (v3 : FVec Ideal S765 .f32) (c : Fin 5) :
    cur2 (hmK (F := Ideal) v0 v2 v3 c) = cls (proj (cur2 v0) (cur2 v2) (cur1 v3)) c := by
  funext i d
  fin_cases c
  · show k0_pay4 (F := Ideal) v0 v2 v3 (ix2 i d) = _
    unfold k0_pay4; dsimp only
    rw [slice2_axis1_eq, projM_at]; rfl
  · show k0_pay5 (F := Ideal) v0 v2 v3 (ix2 i d) = _
    unfold k0_pay5; dsimp only
    rw [slice2_axis1_eq, projM_at]; rfl
  · show k0_pay6 (F := Ideal) v0 v2 v3 (ix2 i d) = _
    unfold k0_pay6; dsimp only
    rw [slice2_axis1_eq, projM_at]; rfl
  · show k0_pay7 (F := Ideal) v0 v2 v3 (ix2 i d) = _
    unfold k0_pay7; dsimp only
    rw [slice2_axis1_eq, projM_at]; rfl
  · show k0_pay8 (F := Ideal) v0 v2 v3 (ix2 i d) = _
    unfold k0_pay8; dsimp only
    rw [slice2_axis1_eq, projM_at]; rfl

theorem hqK_cur (v1 : FVec Ideal S256x768 .f32) (v2 : FVec Ideal S768x765 .f32) (v3 : FVec Ideal S765 .f32) (c : Fin 5) :
    cur2 (hqK (F := Ideal) v1 v2 v3 c) = cls (proj (cur2 v1) (cur2 v2) (cur1 v3)) c := by
  funext r d
  fin_cases c
  · show k0_pay9 (F := Ideal) v1 v2 v3 (ix2 r d) = _
    unfold k0_pay9; dsimp only
    rw [slice2_axis1_eq, projQ_at]; rfl
  · show k0_pay10 (F := Ideal) v1 v2 v3 (ix2 r d) = _
    unfold k0_pay10; dsimp only
    rw [slice2_axis1_eq, projQ_at]; rfl
  · show k0_pay11 (F := Ideal) v1 v2 v3 (ix2 r d) = _
    unfold k0_pay11; dsimp only
    rw [slice2_axis1_eq, projQ_at]; rfl
  · show k0_pay12 (F := Ideal) v1 v2 v3 (ix2 r d) = _
    unfold k0_pay12; dsimp only
    rw [slice2_axis1_eq, projQ_at]; rfl
  · show k0_pay13 (F := Ideal) v1 v2 v3 (ix2 r d) = _
    unfold k0_pay13; dsimp only
    rw [slice2_axis1_eq, projQ_at]; rfl

/-- THE KERNEL'S VALUE OF CLASS `c`, read entry by entry, is the specification's. -/
theorem outK_cur (v0 : FVec Ideal S128x768 .f32) (v1 : FVec Ideal S256x768 .f32) (v2 : FVec Ideal S768x765 .f32) (v3 : FVec Ideal S765 .f32)
    (c : Fin 5) : cur2 (outK (F := Ideal) v0 v1 v2 v3 c) = out (cur2 v0) (cur2 v1) (cur2 v2) (cur1 v3) c := by
  unfold outK out
  rw [capsK_cur, stepK_cur, stepK_cur, startK_cur]
  have hm : (fun c' => cur2 (hmK (F := Ideal) v0 v2 v3 c')) = cls (proj (cur2 v0) (cur2 v2) (cur1 v3)) := funext fun c' => hmK_cur v0 v2 v3 c'
  have hq : (fun c' => cur2 (hqK (F := Ideal) v1 v2 v3 c')) = cls (proj (cur2 v1) (cur2 v2) (cur1 v3)) := funext fun c' => hqK_cur v1 v2 v3 c'
  rw [hm, hq]

end Cert.KernelIdeal.Blocks

end
-- ==== Proof.KValue.lean ====
/-
  From the body's value to the result array. The launch has ONE grid point, whose blocks are the whole arrays: each input
  block is its argument array, and what the point writes back is the whole 256 × 765 result. The body's five stores fill
  the five bands of 153 columns; in band `c` column `153 c + d` holds the specification's value of class `c`, feature `d`
  (`Blocks.outK_cur`), and `(153 c + d) / 153 = c`, `(153 c + d) % 153 = d`. So the array after the run is `Routing.G` of
  the four argument arrays.
-/
import proofs.«160887_j12713103197275_1_alg».proof.Proof.Gen.KernelIdeal.Value
import proofs.«160887_j12713103197275_1_alg».proof.Proof.KTree
import proofs.«160887_j12713103197275_1_alg».proof.Proof.KRead
import Idealize.ShloMosaic.Lib.Pipeline.Value

noncomputable section

namespace Cert.KernelIdeal.KValue

open Cert.KernelIdeal Cert.KernelIdeal.Gen Cert.KernelIdeal.Blocks Idealize.ShloMosaic Idealize.ShloMosaic.TcCoe Idealize.SL.Sem
open Idealize.ShloMosaic.ValueIdx Cert.Routing
open Idealize.ShloMosaic.Pipeline (Dat)

variable (m : (ℓ : Loc nD τ sig) → Buf (Elt Ideal) ℓ) (ρ : Dev nD → PrngReg)

/-- The result array: the specification's function of the four argument arrays as the region finds them. -/
def result (c : Dev nD) : S256x765.Idx → EReal :=
  G (V m c main_arg0 : S128x768.Idx → EReal) (V m c main_arg1 : S256x768.Idx → EReal)
    (V m c main_arg2 : S768x765.Idx → EReal) (V m c main_arg3 : S765.Idx → EReal)

theorem hz2 : (![0, 0] : Fin 2 → Nat) = fun _ => 0 := funext fun a => by fin_cases a <;> rfl
theorem hz1 : (![0] : Fin 1 → Nat) = fun _ => 0 := funext fun a => by fin_cases a; rfl

/-! ## The one point's input blocks are the argument arrays -/

theorem iblk0 (c : Dev nD) : (iblk m c 0 t0_0 : S128x768.Idx → EReal) = V m c main_arg0 := by
  have hz' : (fun a => win0_0.index t0_0 a * main_arg0.ty.shape.size a) = fun _ => 0 := funext fun a => by fin_cases a <;> decide
  exact Memref.read_access_unit_zero (Elt Ideal) main_arg0 hz' (fun a => by rw [congrFun hz' a]; simp) (V m c main_arg0)

theorem iblk1 (c : Dev nD) : (iblk m c 1 t0_0 : S256x768.Idx → EReal) = V m c main_arg1 := by
  have hz' : (fun a => win0_1.index t0_0 a * main_arg1.ty.shape.size a) = fun _ => 0 := funext fun a => by fin_cases a <;> decide
  exact Memref.read_access_unit_zero (Elt Ideal) main_arg1 hz' (fun a => by rw [congrFun hz' a]; simp) (V m c main_arg1)

theorem iblk2 (c : Dev nD) : (iblk m c 2 t0_0 : S768x765.Idx → EReal) = V m c main_arg2 := by
  have hz' : (fun a => win0_2.index t0_0 a * main_arg2.ty.shape.size a) = fun _ => 0 := funext fun a => by fin_cases a <;> decide
  exact Memref.read_access_unit_zero (Elt Ideal) main_arg2 hz' (fun a => by rw [congrFun hz' a]; simp) (V m c main_arg2)

theorem iblk3 (c : Dev nD) : (iblk m c 3 t0_0 : S765.Idx → EReal) = V m c main_arg3 := by
  have hz' : (fun a => win0_3.index t0_0 a * main_arg3.ty.shape.size a) = fun _ => 0 := funext fun a => by fin_cases a; decide
  exact Memref.read_access_unit_zero (Elt Ideal) main_arg3 hz' (fun a => by rw [congrFun hz' a]; simp) (V m c main_arg3)

/-! ## Each stored band is the specification on its columns -/

/-- The value stored for class `k`, at (row, feature) `x`, is the result array's entry at the same row and column `153 k + feature`. -/
theorem band_at (c : Dev nD) (k : Fin 5) (x : S256x153.Idx) (j : S256x765.Idx) (h0 : (j 0).val = (x 0).val)
    (h1 : (j 1).val = 153 * k.val + (x 1).val) :
    outK (F := Ideal) (View.ld (iblk m c 0 t0_0) r0_0) (View.ld (iblk m c 1 t0_0) r0_1) (View.ld (iblk m c 2 t0_0) r0_2)
      (View.ld (iblk m c 3 t0_0) r0_3) k x = result m c j := by
  rw [View.ld_unit_zero (S := S128x768) hz2, View.ld_unit_zero (S := S256x768) hz2, View.ld_unit_zero (S := S768x765) hz2,
    View.ld_unit_zero (S := S765) hz1, iblk0, iblk1, iblk2, iblk3]
  obtain ⟨r, d, rfl⟩ : ∃ (r : Fin 256) (d : Fin 153), x = ix2 r d := ⟨x 0, x 1, eq_ix2 x⟩
  refine (congrFun (congrFun (outK_cur (V m c main_arg0) (V m c main_arg1) (V m c main_arg2) (V m c main_arg3) k) r) d).trans ?_
  have hd : d.val < 153 := d.isLt
  have e0 : j 0 = r := Fin.ext h0
  have e1 : clsOf (j 1) = k := Fin.ext (by show (j 1).val / 153 = k.val; rw [h1]; show (153 * k.val + d.val) / 153 = k.val; omega)
  have e2 : featOf (j 1) = d := Fin.ext (by show (j 1).val % 153 = d.val; rw [h1]; show (153 * k.val + d.val) % 153 = d.val; omega)
  unfold result G
  rw [e0, e1, e2]

/-! ## What the point writes back, and the array after the run -/

/-- Where the printed index map puts the output's one block. -/
theorem idx_facts4 : ∀ t : Fin cfg0.N, win0_4.index t (0 : Fin 2) = 0 ∧ win0_4.index t (1 : Fin 2) = 0 :=
  (by decide +kernel : ∀ t : Fin grid0.N, _)

/-- AFTER THE BODY the output buffer holds the result array: each of the five bands is the specification on its columns,
    and the bands cover the buffer. -/
theorem buffer_eq (c : Dev nD) :
    out0_4 (iblk m c 0 t0_0) (iblk m c 1 t0_0) (iblk m c 2 t0_0) (iblk m c 3 t0_0) = (result m c : S256x765.Idx → EReal) := by
  rw [out0_4_eq]
  funext y
  refine View.canon_apply_of_pieces (Val := Elt Ideal) (S := S256x765) (e := .f32) (result m c) _ ?_ y (cover0_4 _ _ _ _ _ y)
  intro p hp x
  simp only [List.mem_cons, List.not_mem_nil, or_false] at hp
  rcases hp with rfl | rfl | rfl | rfl | rfl
  · exact band_at m c 4 x _ (by simp [Rect.emb_apply, Rect.off_unit, Rect.stride_unit]) (by simp [Rect.emb_apply, Rect.off_unit, Rect.stride_unit])
  · exact band_at m c 3 x _ (by simp [Rect.emb_apply, Rect.off_unit, Rect.stride_unit]) (by simp [Rect.emb_apply, Rect.off_unit, Rect.stride_unit])
  · exact band_at m c 2 x _ (by simp [Rect.emb_apply, Rect.off_unit, Rect.stride_unit]) (by simp [Rect.emb_apply, Rect.off_unit, Rect.stride_unit])
  · exact band_at m c 1 x _ (by simp [Rect.emb_apply, Rect.off_unit, Rect.stride_unit]) (by simp [Rect.emb_apply, Rect.off_unit, Rect.stride_unit])
  · exact band_at m c 0 x _ (by simp [Rect.emb_apply, Rect.off_unit, Rect.stride_unit]) (by simp [Rect.emb_apply, Rect.off_unit, Rect.stride_unit])

/-- WHAT THE POINT WRITES BACK is the block of the result array: the block at zero offsets is the whole array. -/
theorem flushed_eq (c : Dev nD) (t : Fin cfg0.N) (_ : (cfg0.win 4).flush t = true) :
    (dats m 0 c).flushed 4 t = ((cfg0.win 4).blk t).view.read (Elt Ideal) (result m c) := by
  obtain rfl : t = t0_0 := fin_N0 t
  rw [Value.flushed4 m c t0_0, buffer_eq]
  have hz' : (fun a => win0_4.index t0_0 a * main_v0.ty.shape.size a) = fun _ => 0 := funext fun a => by fin_cases a <;> decide
  exact (Memref.read_access_unit_zero (Elt Ideal) main_v0 hz' (fun a => by rw [congrFun hz' a]; simp) (result m c)).symm

/-- An index of the array is in the point's block iff each coordinate is in the block's range on its axis. -/
theorem mem_blk4 (t : Fin cfg0.N) (i : S256x765.Idx) :
    i ∈ ((cfg0.win 4).blk t).view.set ↔ ∀ a : Fin 2, win0_4.index t a * S256x765.size a ≤ (i a).val ∧ (i a).val < win0_4.index t a * S256x765.size a + S256x765.size a := by
  show i ∈ ((View.whole main_v0).slice (win0_4.rect t)).set ↔ _
  rw [View.set_slice_whole, Rect.mem_set_unit]
  exact Iff.rfl

/-- THE ARRAY AFTER THE RUN is the specification's function of the argument arrays: the one block covers it. -/
theorem final (c : Dev nD) : (dats m 0 c).arrAt 4 cfg0.N = result m c :=
  (dats m 0 c).arrAt_eq_of_cover 4 (result m c) (flushed_eq m c) fun i =>
    ⟨t0_0, flush0_4 t0_0, by
      rw [mem_blk4]
      obtain ⟨e0, e1⟩ := idx_facts4 t0_0
      intro a
      match a with
      | ⟨0, _⟩ => show win0_4.index t0_0 (0 : Fin 2) * 256 ≤ (i 0).val ∧ (i 0).val < win0_4.index t0_0 (0 : Fin 2) * 256 + 256; have hi : (i 0).val < 256 := (i 0).isLt; omega
      | ⟨1, _⟩ => show win0_4.index t0_0 (1 : Fin 2) * 765 ≤ (i 1).val ∧ (i 1).val < win0_4.index t0_0 (1 : Fin 2) * 765 + 765; have hi : (i 1).val < 765 := (i 1).isLt; omega⟩

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Cert.KernelIdeal.Value.run_blocks m ρ)

end Cert.KernelIdeal.KValue

end
-- ==== Proof.RefPrims.lean ====
/-
  The layout vocabulary of the routing computation at its literal shapes: every broadcast and every one-axis sum the
  computation uses, named, each with its reading at an index given by coordinates. Layout of the arrays:
  [query r : 256, memory row i : 128, class c : 5, feature d : 153], with unit axes where an array does not depend on
  a coordinate. All values are extended reals and every operation is exact.
-/
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section

open scoped BigOperators

namespace Cert.Routing.Ref

open Idealize.ShloMosaic Idealize.ShloMosaic.ValueIdx

/-! ## Shapes -/

abbrev T0 : Shape := ⟨0, ![]⟩
abbrev TM4 : Shape := ⟨4, ![1, 128, 5, 153]⟩
abbrev TQ4 : Shape := ⟨4, ![256, 1, 5, 153]⟩
abbrev TF : Shape := ⟨4, ![256, 128, 5, 153]⟩
abbrev TA : Shape := ⟨3, ![256, 128, 5]⟩
abbrev TV : Shape := ⟨3, ![256, 5, 153]⟩
abbrev TM3 : Shape := ⟨3, ![1, 128, 5]⟩
abbrev TM3k : Shape := ⟨4, ![1, 128, 5, 1]⟩
abbrev TQ3 : Shape := ⟨3, ![256, 1, 5]⟩
abbrev TQ3k : Shape := ⟨4, ![256, 1, 5, 1]⟩
abbrev TP : Shape := ⟨2, ![256, 128]⟩
abbrev TPk : Shape := ⟨3, ![256, 128, 1]⟩
abbrev TAk : Shape := ⟨4, ![256, 128, 5, 1]⟩
abbrev TN : Shape := ⟨2, ![256, 5]⟩
abbrev TNk : Shape := ⟨3, ![256, 5, 1]⟩
abbrev TH : Shape := ⟨3, ![128, 5, 153]⟩

theorem h_T0 : 0 < T0.numel := by decide

/-! ## A scalar constant repeated over a shape -/

/-- The scalar with binary word `w`, repeated over the shape `T`. -/
def kconst (T : Shape) (h : T0.BroadcastsInDim T (![] : Fin 0 → Fin T.rank)) (w : BitVec 32) : FVec Ideal T .f32 :=
  broadcastInDim T (![] : Fin 0 → Fin T.rank) h (constant (F := Ideal) T0 .f32 w)
theorem kconst_apply (T : Shape) (h : T0.BroadcastsInDim T (![] : Fin 0 → Fin T.rank)) (w : BitVec 32) (j : T.Idx) :
    kconst T h w j = Ideal.ofBits .f32 w :=
  broadcastInDim_scalar_apply h _ j

theorem h_k_A : T0.BroadcastsInDim TA (![] : Fin 0 → Fin TA.rank) := by decide
theorem h_k_M3k : T0.BroadcastsInDim TM3k (![] : Fin 0 → Fin TM3k.rank) := by decide
theorem h_k_Q3k : T0.BroadcastsInDim TQ3k (![] : Fin 0 → Fin TQ3k.rank) := by decide
theorem h_k_P : T0.BroadcastsInDim TP (![] : Fin 0 → Fin TP.rank) := by decide
theorem h_k_Nk : T0.BroadcastsInDim TNk (![] : Fin 0 → Fin TNk.rank) := by decide
theorem h_k_Q4 : T0.BroadcastsInDim TQ4 (![] : Fin 0 → Fin TQ4.rank) := by decide

/-! ## The broadcasts, read at an index -/

theorem h_bcK_M : TM3.BroadcastsInDim TM3k (![0, 1, 2] : Fin 3 → Fin TM3k.rank) := by decide
/-- A per-row value of the memory array given a trailing unit axis. -/
def bcK_M (x : FVec Ideal TM3 .f32) : FVec Ideal TM3k .f32 := broadcastInDim TM3k (![0, 1, 2] : Fin 3 → Fin TM3k.rank) h_bcK_M x
theorem bcK_M_apply (x : FVec Ideal TM3 .f32) (a : Fin 1) (b : Fin 128) (c : Fin 5) (d : Fin 1) :
    bcK_M x (ix4 a b c d) = x (ix3 (0 : Fin 1) b c) :=
  broadcastInDim_apply _ h_bcK_M x _ _ (fun e => by fin_cases e <;> rfl)

theorem h_bcD_M : TM3k.BroadcastsInDim TM4 (![0, 1, 2, 3] : Fin 4 → Fin TM4.rank) := by decide
/-- A per-row value of the memory array repeated along the features. -/
def bcD_M (x : FVec Ideal TM3k .f32) : FVec Ideal TM4 .f32 := broadcastInDim TM4 (![0, 1, 2, 3] : Fin 4 → Fin TM4.rank) h_bcD_M x
theorem bcD_M_apply (x : FVec Ideal TM3k .f32) (a : Fin 1) (b : Fin 128) (c : Fin 5) (d : Fin 153) :
    bcD_M x (ix4 a b c d) = x (ix4 (0 : Fin 1) b c (0 : Fin 1)) :=
  broadcastInDim_apply _ h_bcD_M x _ _ (fun e => by fin_cases e <;> rfl)

theorem h_bcK_Q : TQ3.BroadcastsInDim TQ3k (![0, 1, 2] : Fin 3 → Fin TQ3k.rank) := by decide
/-- A per-row value of the query array given a trailing unit axis. -/
def bcK_Q (x : FVec Ideal TQ3 .f32) : FVec Ideal TQ3k .f32 := broadcastInDim TQ3k (![0, 1, 2] : Fin 3 → Fin TQ3k.rank) h_bcK_Q x
theorem bcK_Q_apply (x : FVec Ideal TQ3 .f32) (a : Fin 256) (b : Fin 1) (c : Fin 5) (d : Fin 1) :
    bcK_Q x (ix4 a b c d) = x (ix3 a (0 : Fin 1) c) :=
  broadcastInDim_apply _ h_bcK_Q x _ _ (fun e => by fin_cases e <;> rfl)

theorem h_bcD_Q : TQ3k.BroadcastsInDim TQ4 (![0, 1, 2, 3] : Fin 4 → Fin TQ4.rank) := by decide
/-- A per-row value of the query array repeated along the features. -/
def bcD_Q (x : FVec Ideal TQ3k .f32) : FVec Ideal TQ4 .f32 := broadcastInDim TQ4 (![0, 1, 2, 3] : Fin 4 → Fin TQ4.rank) h_bcD_Q x
theorem bcD_Q_apply (x : FVec Ideal TQ3k .f32) (a : Fin 256) (b : Fin 1) (c : Fin 5) (d : Fin 153) :
    bcD_Q x (ix4 a b c d) = x (ix4 a (0 : Fin 1) c (0 : Fin 1)) :=
  broadcastInDim_apply _ h_bcD_Q x _ _ (fun e => by fin_cases e <;> rfl)

theorem h_bcM_F : TM4.BroadcastsInDim TF (![0, 1, 2, 3] : Fin 4 → Fin TF.rank) := by decide
/-- The memory array repeated for every query. -/
def bcM_F (x : FVec Ideal TM4 .f32) : FVec Ideal TF .f32 := broadcastInDim TF (![0, 1, 2, 3] : Fin 4 → Fin TF.rank) h_bcM_F x
theorem bcM_F_apply (x : FVec Ideal TM4 .f32) (a : Fin 256) (b : Fin 128) (c : Fin 5) (d : Fin 153) :
    bcM_F x (ix4 a b c d) = x (ix4 (0 : Fin 1) b c d) :=
  broadcastInDim_apply _ h_bcM_F x _ _ (fun e => by fin_cases e <;> rfl)

theorem h_bcQ_F : TQ4.BroadcastsInDim TF (![0, 1, 2, 3] : Fin 4 → Fin TF.rank) := by decide
/-- The query array repeated for every memory row. -/
def bcQ_F (x : FVec Ideal TQ4 .f32) : FVec Ideal TF .f32 := broadcastInDim TF (![0, 1, 2, 3] : Fin 4 → Fin TF.rank) h_bcQ_F x
theorem bcQ_F_apply (x : FVec Ideal TQ4 .f32) (a : Fin 256) (b : Fin 128) (c : Fin 5) (d : Fin 153) :
    bcQ_F x (ix4 a b c d) = x (ix4 a (0 : Fin 1) c d) :=
  broadcastInDim_apply _ h_bcQ_F x _ _ (fun e => by fin_cases e <;> rfl)

theorem h_bcM3_A : TM3.BroadcastsInDim TA (![0, 1, 2] : Fin 3 → Fin TA.rank) := by decide
/-- A per-memory-row value repeated for every query. -/
def bcM3_A (x : FVec Ideal TM3 .f32) : FVec Ideal TA .f32 := broadcastInDim TA (![0, 1, 2] : Fin 3 → Fin TA.rank) h_bcM3_A x
theorem bcM3_A_apply (x : FVec Ideal TM3 .f32) (a : Fin 256) (b : Fin 128) (c : Fin 5) :
    bcM3_A x (ix3 a b c) = x (ix3 (0 : Fin 1) b c) :=
  broadcastInDim_apply _ h_bcM3_A x _ _ (fun e => by fin_cases e <;> rfl)

theorem h_bcQ3_A : TQ3.BroadcastsInDim TA (![0, 1, 2] : Fin 3 → Fin TA.rank) := by decide
/-- A per-query value repeated for every memory row. -/
def bcQ3_A (x : FVec Ideal TQ3 .f32) : FVec Ideal TA .f32 := broadcastInDim TA (![0, 1, 2] : Fin 3 → Fin TA.rank) h_bcQ3_A x
theorem bcQ3_A_apply (x : FVec Ideal TQ3 .f32) (a : Fin 256) (b : Fin 128) (c : Fin 5) :
    bcQ3_A x (ix3 a b c) = x (ix3 a (0 : Fin 1) c) :=
  broadcastInDim_apply _ h_bcQ3_A x _ _ (fun e => by fin_cases e <;> rfl)

theorem h_bcP_Pk : TP.BroadcastsInDim TPk (![0, 1] : Fin 2 → Fin TPk.rank) := by decide
/-- A per-pair value given a trailing unit axis. -/
def bcP_Pk (x : FVec Ideal TP .f32) : FVec Ideal TPk .f32 := broadcastInDim TPk (![0, 1] : Fin 2 → Fin TPk.rank) h_bcP_Pk x
theorem bcP_Pk_apply (x : FVec Ideal TP .f32) (a : Fin 256) (b : Fin 128) (c : Fin 1) :
    bcP_Pk x (ix3 a b c) = x (ix2 a b) :=
  broadcastInDim_apply _ h_bcP_Pk x _ _ (fun e => by fin_cases e <;> rfl)

theorem h_bcPk_A : TPk.BroadcastsInDim TA (![0, 1, 2] : Fin 3 → Fin TA.rank) := by decide
/-- A per-pair value repeated for every class. -/
def bcPk_A (x : FVec Ideal TPk .f32) : FVec Ideal TA .f32 := broadcastInDim TA (![0, 1, 2] : Fin 3 → Fin TA.rank) h_bcPk_A x
theorem bcPk_A_apply (x : FVec Ideal TPk .f32) (a : Fin 256) (b : Fin 128) (c : Fin 5) :
    bcPk_A x (ix3 a b c) = x (ix3 a b (0 : Fin 1)) :=
  broadcastInDim_apply _ h_bcPk_A x _ _ (fun e => by fin_cases e <;> rfl)

theorem h_bcA_Ak : TA.BroadcastsInDim TAk (![0, 1, 2] : Fin 3 → Fin TAk.rank) := by decide
/-- A per-(pair, class) value given a trailing unit axis. -/
def bcA_Ak (x : FVec Ideal TA .f32) : FVec Ideal TAk .f32 := broadcastInDim TAk (![0, 1, 2] : Fin 3 → Fin TAk.rank) h_bcA_Ak x
theorem bcA_Ak_apply (x : FVec Ideal TA .f32) (a : Fin 256) (b : Fin 128) (c : Fin 5) (d : Fin 1) :
    bcA_Ak x (ix4 a b c d) = x (ix3 a b c) :=
  broadcastInDim_apply _ h_bcA_Ak x _ _ (fun e => by fin_cases e <;> rfl)

theorem h_bcAk_F : TAk.BroadcastsInDim TF (![0, 1, 2, 3] : Fin 4 → Fin TF.rank) := by decide
/-- A per-(pair, class) value repeated along the features. -/
def bcAk_F (x : FVec Ideal TAk .f32) : FVec Ideal TF .f32 := broadcastInDim TF (![0, 1, 2, 3] : Fin 4 → Fin TF.rank) h_bcAk_F x
theorem bcAk_F_apply (x : FVec Ideal TAk .f32) (a : Fin 256) (b : Fin 128) (c : Fin 5) (d : Fin 153) :
    bcAk_F x (ix4 a b c d) = x (ix4 a b c (0 : Fin 1)) :=
  broadcastInDim_apply _ h_bcAk_F x _ _ (fun e => by fin_cases e <;> rfl)

theorem h_bcN_Nk : TN.BroadcastsInDim TNk (![0, 1] : Fin 2 → Fin TNk.rank) := by decide
/-- A per-(query, class) value given a trailing unit axis. -/
def bcN_Nk (x : FVec Ideal TN .f32) : FVec Ideal TNk .f32 := broadcastInDim TNk (![0, 1] : Fin 2 → Fin TNk.rank) h_bcN_Nk x
theorem bcN_Nk_apply (x : FVec Ideal TN .f32) (a : Fin 256) (b : Fin 5) (c : Fin 1) :
    bcN_Nk x (ix3 a b c) = x (ix2 a b) :=
  broadcastInDim_apply _ h_bcN_Nk x _ _ (fun e => by fin_cases e <;> rfl)

theorem h_bcNk_V : TNk.BroadcastsInDim TV (![0, 1, 2] : Fin 3 → Fin TV.rank) := by decide
/-- A per-(query, class) value repeated along the features. -/
def bcNk_V (x : FVec Ideal TNk .f32) : FVec Ideal TV .f32 := broadcastInDim TV (![0, 1, 2] : Fin 3 → Fin TV.rank) h_bcNk_V x
theorem bcNk_V_apply (x : FVec Ideal TNk .f32) (a : Fin 256) (b : Fin 5) (c : Fin 153) :
    bcNk_V x (ix3 a b c) = x (ix3 a b (0 : Fin 1)) :=
  broadcastInDim_apply _ h_bcNk_V x _ _ (fun e => by fin_cases e <;> rfl)

theorem h_bcV_Q : TV.BroadcastsInDim TQ4 (![0, 2, 3] : Fin 3 → Fin TQ4.rank) := by decide
/-- A per-query array given a unit memory axis. -/
def bcV_Q (x : FVec Ideal TV .f32) : FVec Ideal TQ4 .f32 := broadcastInDim TQ4 (![0, 2, 3] : Fin 3 → Fin TQ4.rank) h_bcV_Q x
theorem bcV_Q_apply (x : FVec Ideal TV .f32) (a : Fin 256) (b : Fin 1) (c : Fin 5) (d : Fin 153) :
    bcV_Q x (ix4 a b c d) = x (ix3 a c d) :=
  broadcastInDim_apply _ h_bcV_Q x _ _ (fun e => by fin_cases e <;> rfl)

theorem h_bcH_M : TH.BroadcastsInDim TM4 (![1, 2, 3] : Fin 3 → Fin TM4.rank) := by decide
/-- A per-memory-row array given a leading unit axis. -/
def bcH_M (x : FVec Ideal TH .f32) : FVec Ideal TM4 .f32 := broadcastInDim TM4 (![1, 2, 3] : Fin 3 → Fin TM4.rank) h_bcH_M x
theorem bcH_M_apply (x : FVec Ideal TH .f32) (a : Fin 1) (b : Fin 128) (c : Fin 5) (d : Fin 153) :
    bcH_M x (ix4 a b c d) = x (ix3 b c d) :=
  broadcastInDim_apply _ h_bcH_M x _ _ (fun e => by fin_cases e <;> rfl)

/-! ## The one-axis sums, read at an index: the sum over the summed coordinate (the initial value is zero) -/

theorem h_sumD_M : TM4.ReducesTo [3] TM3 := by decide
theorem h_sumD_M' : TM4.Reduces [3] TM3 := by decide
/-- The sum over the features of the memory array. -/
def sumD_M (x : FVec Ideal TM4 .f32) : FVec Ideal TM3 .f32 :=
  Host.reduceAdd x (constant (F := Ideal) T0 .f32 0x00000000#32) h_sumD_M h_T0
theorem sumD_M_apply (x : FVec Ideal TM4 .f32) (a : Fin 1) (b : Fin 128) (c : Fin 5) :
    sumD_M x (ix3 a b c) = ∑ k : Fin 153, x (ix4 a b c k) := by
  refine (Ideal.hostReduceAdd_single h_sumD_M h_sumD_M' x _ (ix3 a b c)).trans ?_
  rw [show (constant (F := Ideal) T0 .f32 0x00000000#32) (Shape.Idx.first h_T0) = (0 : EReal) from Ideal.ofBits_zero_f32, zero_add]
  refine Finset.sum_congr rfl fun k _ => congrArg x ?_
  funext e; apply Fin.ext; fin_cases e <;> rfl

theorem h_sumD_Q : TQ4.ReducesTo [3] TQ3 := by decide
theorem h_sumD_Q' : TQ4.Reduces [3] TQ3 := by decide
/-- The sum over the features of the query array. -/
def sumD_Q (x : FVec Ideal TQ4 .f32) : FVec Ideal TQ3 .f32 :=
  Host.reduceAdd x (constant (F := Ideal) T0 .f32 0x00000000#32) h_sumD_Q h_T0
theorem sumD_Q_apply (x : FVec Ideal TQ4 .f32) (a : Fin 256) (b : Fin 1) (c : Fin 5) :
    sumD_Q x (ix3 a b c) = ∑ k : Fin 153, x (ix4 a b c k) := by
  refine (Ideal.hostReduceAdd_single h_sumD_Q h_sumD_Q' x _ (ix3 a b c)).trans ?_
  rw [show (constant (F := Ideal) T0 .f32 0x00000000#32) (Shape.Idx.first h_T0) = (0 : EReal) from Ideal.ofBits_zero_f32, zero_add]
  refine Finset.sum_congr rfl fun k _ => congrArg x ?_
  funext e; apply Fin.ext; fin_cases e <;> rfl

theorem h_sumD_F : TF.ReducesTo [3] TA := by decide
theorem h_sumD_F' : TF.Reduces [3] TA := by decide
/-- The sum over the features of a full array. -/
def sumD_F (x : FVec Ideal TF .f32) : FVec Ideal TA .f32 :=
  Host.reduceAdd x (constant (F := Ideal) T0 .f32 0x00000000#32) h_sumD_F h_T0
theorem sumD_F_apply (x : FVec Ideal TF .f32) (a : Fin 256) (b : Fin 128) (c : Fin 5) :
    sumD_F x (ix3 a b c) = ∑ k : Fin 153, x (ix4 a b c k) := by
  refine (Ideal.hostReduceAdd_single h_sumD_F h_sumD_F' x _ (ix3 a b c)).trans ?_
  rw [show (constant (F := Ideal) T0 .f32 0x00000000#32) (Shape.Idx.first h_T0) = (0 : EReal) from Ideal.ofBits_zero_f32, zero_add]
  refine Finset.sum_congr rfl fun k _ => congrArg x ?_
  funext e; apply Fin.ext; fin_cases e <;> rfl

theorem h_sumI_F : TF.ReducesTo [1] TV := by decide
theorem h_sumI_F' : TF.Reduces [1] TV := by decide
/-- The sum over the memory rows of a full array. -/
def sumI_F (x : FVec Ideal TF .f32) : FVec Ideal TV .f32 :=
  Host.reduceAdd x (constant (F := Ideal) T0 .f32 0x00000000#32) h_sumI_F h_T0
theorem sumI_F_apply (x : FVec Ideal TF .f32) (a : Fin 256) (b : Fin 5) (c : Fin 153) :
    sumI_F x (ix3 a b c) = ∑ k : Fin 128, x (ix4 a k b c) := by
  refine (Ideal.hostReduceAdd_single h_sumI_F h_sumI_F' x _ (ix3 a b c)).trans ?_
  rw [show (constant (F := Ideal) T0 .f32 0x00000000#32) (Shape.Idx.first h_T0) = (0 : EReal) from Ideal.ofBits_zero_f32, zero_add]
  refine Finset.sum_congr rfl fun k _ => congrArg x ?_
  funext e; apply Fin.ext; fin_cases e <;> rfl

theorem h_sumC_A : TA.ReducesTo [2] TP := by decide
theorem h_sumC_A' : TA.Reduces [2] TP := by decide
/-- The sum over the classes. -/
def sumC_A (x : FVec Ideal TA .f32) : FVec Ideal TP .f32 :=
  Host.reduceAdd x (constant (F := Ideal) T0 .f32 0x00000000#32) h_sumC_A h_T0
theorem sumC_A_apply (x : FVec Ideal TA .f32) (a : Fin 256) (b : Fin 128) :
    sumC_A x (ix2 a b) = ∑ k : Fin 5, x (ix3 a b k) := by
  refine (Ideal.hostReduceAdd_single h_sumC_A h_sumC_A' x _ (ix2 a b)).trans ?_
  rw [show (constant (F := Ideal) T0 .f32 0x00000000#32) (Shape.Idx.first h_T0) = (0 : EReal) from Ideal.ofBits_zero_f32, zero_add]
  refine Finset.sum_congr rfl fun k _ => congrArg x ?_
  funext e; apply Fin.ext; fin_cases e <;> rfl

theorem h_sumD_V : TV.ReducesTo [2] TN := by decide
theorem h_sumD_V' : TV.Reduces [2] TN := by decide
/-- The sum over the features of a per-query array. -/
def sumD_V (x : FVec Ideal TV .f32) : FVec Ideal TN .f32 :=
  Host.reduceAdd x (constant (F := Ideal) T0 .f32 0x00000000#32) h_sumD_V h_T0
theorem sumD_V_apply (x : FVec Ideal TV .f32) (a : Fin 256) (b : Fin 5) :
    sumD_V x (ix2 a b) = ∑ k : Fin 153, x (ix3 a b k) := by
  refine (Ideal.hostReduceAdd_single h_sumD_V h_sumD_V' x _ (ix2 a b)).trans ?_
  rw [show (constant (F := Ideal) T0 .f32 0x00000000#32) (Shape.Idx.first h_T0) = (0 : EReal) from Ideal.ofBits_zero_f32, zero_add]
  refine Finset.sum_congr rfl fun k _ => congrArg x ?_
  funext e; apply Fin.ext; fin_cases e <;> rfl

/-! ## The largest of the five classes -/

/-- From `⊥`, a fold of `max` over five values, joined once more to `⊥`, is the largest of them. -/
theorem fold_max_fin5 (b : EReal) (hb : b = ⊥) (g : Fin 5 → EReal) :
    max b ((Finset.univ : Finset (Fin 5)).fold max b g) = max (max (max (max (g 0) (g 1)) (g 2)) (g 3)) (g 4) := by
  subst hb
  rw [max_bot_left]
  simp only [Fin.univ_succ, Finset.fold_cons, Finset.fold_map, Finset.univ_unique, Finset.fold_singleton]
  show max (g 0) (max (g 1) (max (g 2) (max (g 3) (max (g 4) ⊥)))) = _
  rw [max_bot_right]
  ac_rfl

/-- The word of `-∞` is the least extended real. -/
theorem ofBits_neg_inf : Ideal.ofBits .f32 0xFF800000#32 = (⊥ : EReal) := by simp [Ideal.ofBits, Ideal.ieee]

theorem h_maxC : TA.ReducesTo [2] TP := by decide
theorem h_maxC' : TA.Reduces [2] TP := by decide

/-- The largest logit over the classes, per (query, memory row) pair. -/
def maxC_A (t : FVec Ideal TA .f32) : FVec Ideal TP .f32 :=
  maximumf (broadcastInDim TP (![] : Fin 0 → Fin TP.rank) h_k_P (constant (F := Ideal) T0 .f32 0xFF800000#32))
    (Host.reduce FloatOps.maximumf t (constant (F := Ideal) T0 .f32 0xFF800000#32) h_maxC h_T0)
theorem maxC_A_apply (t : FVec Ideal TA .f32) (a : Fin 256) (b : Fin 128) :
    maxC_A t (ix2 a b)
      = max (max (max (max (t (ix3 a b 0)) (t (ix3 a b 1))) (t (ix3 a b 2))) (t (ix3 a b 3))) (t (ix3 a b 4)) := by
  have hf : (t ∘ h_maxC'.lift (ix2 a b)) = fun k : Fin 5 => t (ix3 a b k) :=
    funext fun k => congrArg t (by funext e; apply Fin.ext; fin_cases e <;> rfl)
  show max ((broadcastInDim TP (![] : Fin 0 → Fin TP.rank) h_k_P (constant (F := Ideal) T0 .f32 0xFF800000#32)) (ix2 a b))
    (Host.reduce FloatOps.maximumf t (constant (F := Ideal) T0 .f32 0xFF800000#32) h_maxC h_T0 (ix2 a b)) = _
  rw [broadcastInDim_scalar_apply, Host.reduce_eq_fold_single FloatOps.maximumf t _ h_maxC h_maxC' h_T0]
  refine Eq.trans ?_ (fold_max_fin5 (Ideal.ofBits .f32 0xFF800000#32) ofBits_neg_inf (fun k : Fin 5 => t (ix3 a b k)))
  exact congrArg (fun f => max (Ideal.ofBits .f32 0xFF800000#32)
    (Finset.fold max (Ideal.ofBits .f32 0xFF800000#32) f (Finset.univ : Finset (Fin 5)))) hf

/-! ## The host's one-operand functions at an index -/

theorem hostSqrt_apply {s : Shape} (x : FVec Ideal s .f32) (i : s.Idx) : Host.sqrt x i = Ideal.sqrt (x i) := rfl
theorem hostTanh_apply {s : Shape} (x : FVec Ideal s .f32) (i : s.Idx) : Host.tanh x i = Ideal.tanh (x i) := rfl
theorem hostExp_apply {s : Shape} (x : FVec Ideal s .f32) (i : s.Idx) : Host.exp x i = Ideal.exp (x i) := rfl

end Cert.Routing.Ref

end
-- ==== Proof.RefBlocks.lean ====
/-
  The building blocks of the routing computation as the array program spells them — centring, the correlation, the
  softmax with its shift, the coupling-weighted sum, the squash, the agreement and the averaging — over the literal
  shapes, each with its reading class by class as the corresponding function of the specification. The arrays are
  laid out [query, memory row, class, feature]; a view fixes the class and curries the remaining coordinates.
  The only algebra used is commutativity of the product (the program multiplies memory by query and memory by weight,
  the specification the other way round); nothing is distributed or cancelled.
-/
import proofs.«160887_j12713103197275_1_alg».proof.Proof.Spec
import proofs.«160887_j12713103197275_1_alg».proof.Proof.RefPrims

noncomputable section

open scoped BigOperators

namespace Cert.Routing.Ref

open Idealize.ShloMosaic Idealize.ShloMosaic.ValueIdx Cert.Routing

/-! ## Views: one class of an array, by its remaining coordinates -/

/-- Class `c` of a memory array `[1, 128, 5, 153]`: by memory row and feature. -/
def viewM (X : FVec Ideal TM4 .f32) (c : Fin 5) : Fin 128 → Fin 153 → EReal := fun i d => X (ix4 (0 : Fin 1) i c d)
/-- Class `c` of a query array `[256, 1, 5, 153]`: by query and feature. -/
def viewQ (X : FVec Ideal TQ4 .f32) (c : Fin 5) : Fin 256 → Fin 153 → EReal := fun r d => X (ix4 r (0 : Fin 1) c d)
/-- Class `c` of a pair array `[256, 128, 5]`: by query and memory row. -/
def viewA (X : FVec Ideal TA .f32) (c : Fin 5) : Fin 256 → Fin 128 → EReal := fun r i => X (ix3 r i c)
/-- Class `c` of a capsule array `[256, 5, 153]`: by query and feature. -/
def viewV (X : FVec Ideal TV .f32) (c : Fin 5) : Fin 256 → Fin 153 → EReal := fun r d => X (ix3 r c d)

/-! ## Centring -/

/-- The memory rows less their mean over the features. -/
def rCenterM (X : FVec Ideal TM4 .f32) : FVec Ideal TM4 .f32 :=
  subf X (bcD_M (Host.divf (bcK_M (sumD_M X)) (kconst TM3k h_k_M3k 0x43190000#32)))
/-- The query rows less their mean over the features. -/
def rCenterQ (X : FVec Ideal TQ4 .f32) : FVec Ideal TQ4 .f32 :=
  subf X (bcD_Q (Host.divf (bcK_Q (sumD_Q X)) (kconst TQ3k h_k_Q3k 0x43190000#32)))

theorem rCenterM_view (X : FVec Ideal TM4 .f32) (c : Fin 5) : viewM (rCenterM X) c = center (viewM X c) := by
  funext i d
  simp only [viewM, rCenterM, center, feat, subf_apply, bcD_M_apply, hostDivf_apply, bcK_M_apply, sumD_M_apply, kconst_apply]

theorem rCenterQ_view (X : FVec Ideal TQ4 .f32) (c : Fin 5) : viewQ (rCenterQ X) c = center (viewQ X c) := by
  funext r d
  simp only [viewQ, rCenterQ, center, feat, subf_apply, bcD_Q_apply, hostDivf_apply, bcK_Q_apply, sumD_Q_apply, kconst_apply]

/-! ## The correlation -/

/-- `tanh` of the normalized inner product of centred rows: the specification's `corr` is this of the centred rows. -/
def corrOf (cm : Fin 128 → Fin 153 → EReal) (cq : Fin 256 → Fin 153 → EReal) : Fin 256 → Fin 128 → EReal := fun r i =>
  Ideal.tanh (Ideal.div (∑ d, cq r d * cm i d)
    (Ideal.sqrt (∑ d, cq r d * cq r d) * Ideal.sqrt (∑ d, cm i d * cm i d) + eps))

theorem corr_eq_corrOf (hm : Fin 128 → Fin 153 → EReal) (q : Fin 256 → Fin 153 → EReal) :
    corr hm q = corrOf (center hm) (center q) := rfl

/-- The correlation of centred memory rows `xm` with centred queries `yq`, for every pair and class. -/
def rCorrOf (xm : FVec Ideal TM4 .f32) (yq : FVec Ideal TQ4 .f32) : FVec Ideal TA .f32 :=
  Host.tanh (Host.divf (sumD_F (mulf (bcM_F xm) (bcQ_F yq)))
    (addf (mulf (bcM3_A (Host.sqrt (sumD_M (mulf xm xm)))) (bcQ3_A (Host.sqrt (sumD_Q (mulf yq yq)))))
      (kconst TA h_k_A 0x322BCC77#32)))

theorem rCorrOf_view (xm : FVec Ideal TM4 .f32) (yq : FVec Ideal TQ4 .f32) (c : Fin 5) :
    viewA (rCorrOf xm yq) c = corrOf (viewM xm c) (viewQ yq c) := by
  funext r i
  simp only [viewA, viewM, viewQ, rCorrOf, corrOf, eps, hostTanh_apply, hostDivf_apply, sumD_F_apply, mulf_apply, addf_apply,
    bcM_F_apply, bcQ_F_apply, bcM3_A_apply, bcQ3_A_apply, hostSqrt_apply, sumD_M_apply, sumD_Q_apply, kconst_apply]
  have e1 : ∑ k : Fin 153, xm (ix4 (0 : Fin 1) i c k) * yq (ix4 r (0 : Fin 1) c k)
      = ∑ k : Fin 153, yq (ix4 r (0 : Fin 1) c k) * xm (ix4 (0 : Fin 1) i c k) :=
    Finset.sum_congr rfl fun k _ => mul_comm _ _
  rw [e1, mul_comm (Ideal.sqrt _) (Ideal.sqrt _)]

/-- The correlation of memory rows with queries: centred first. -/
def rCorr (m : FVec Ideal TM4 .f32) (q : FVec Ideal TQ4 .f32) : FVec Ideal TA .f32 := rCorrOf (rCenterM m) (rCenterQ q)

theorem rCorr_view (m : FVec Ideal TM4 .f32) (q : FVec Ideal TQ4 .f32) (c : Fin 5) :
    viewA (rCorr m q) c = corr (viewM m c) (viewQ q c) := by
  rw [corr_eq_corrOf, ← rCenterM_view, ← rCenterQ_view]
  exact rCorrOf_view _ _ c

/-! ## The softmax over the classes, shifted by the largest logit, plus the agreements -/

/-- The logits at temperature one. -/
def rTemp (a : FVec Ideal TA .f32) : FVec Ideal TA .f32 := Host.divf a (kconst TA h_k_A 0x3F800000#32)
/-- The exponentials of the logits less their largest over the classes. -/
def rExp (t : FVec Ideal TA .f32) : FVec Ideal TA .f32 := Host.exp (subf t (bcPk_A (bcP_Pk (maxC_A t))))
/-- The exponentials normalized over the classes, plus the agreements: the coupling weights. -/
def rSoftP (e p : FVec Ideal TA .f32) : FVec Ideal TA .f32 := addf (Host.divf e (bcPk_A (bcP_Pk (sumC_A e)))) p
/-- The coupling weights of the logits `a` and the agreements `p`. -/
def rWeights (a p : FVec Ideal TA .f32) : FVec Ideal TA .f32 := rSoftP (rExp (rTemp a)) p

theorem rWeights_view (a p : FVec Ideal TA .f32) (c : Fin 5) :
    viewA (rWeights a p) c = fun r i => soft (fun c' => viewA a c') c r i + viewA p c r i := by
  funext r i
  simp only [viewA, rWeights, rSoftP, rExp, rTemp, soft, temp, max5, one, addf_apply, subf_apply, hostDivf_apply, hostExp_apply,
    bcPk_A_apply, bcP_Pk_apply, sumC_A_apply, maxC_A_apply, kconst_apply]

/-! ## The coupling-weighted sum of the memory rows -/

def rMix (m : FVec Ideal TM4 .f32) (w : FVec Ideal TA .f32) : FVec Ideal TV .f32 :=
  sumI_F (mulf (bcM_F m) (bcAk_F (bcA_Ak w)))

theorem rMix_view (m : FVec Ideal TM4 .f32) (w : FVec Ideal TA .f32) (c : Fin 5) :
    viewV (rMix m w) c = mix (viewA w c) (viewM m c) := by
  funext r d
  simp only [viewV, viewA, viewM, rMix, mix, sumI_F_apply, mulf_apply, bcM_F_apply, bcAk_F_apply, bcA_Ak_apply]
  exact Finset.sum_congr rfl fun k _ => mul_comm _ _

/-! ## The squash -/

/-- The squared lengths, with a trailing unit axis. -/
def rSq (s : FVec Ideal TV .f32) : FVec Ideal TNk .f32 := bcN_Nk (sumD_V (mulf s s))
/-- The squash of `s` given its squared lengths `n`. -/
def rSquashOf (n : FVec Ideal TNk .f32) (s : FVec Ideal TV .f32) : FVec Ideal TV .f32 :=
  Host.divf (mulf (bcNk_V (Host.divf n (addf (kconst TNk h_k_Nk 0x3F800000#32) n))) s)
    (bcNk_V (Host.sqrt (addf n (kconst TNk h_k_Nk 0x322BCC77#32))))
def rSquash (s : FVec Ideal TV .f32) : FVec Ideal TV .f32 := rSquashOf (rSq s) s

theorem rSq_apply (s : FVec Ideal TV .f32) (r : Fin 256) (c : Fin 5) (u : Fin 1) : rSq s (ix3 r c u) = sq (viewV s c) r := by
  simp only [rSq, sq, viewV, bcN_Nk_apply, sumD_V_apply, mulf_apply]

theorem rSquash_view (s : FVec Ideal TV .f32) (c : Fin 5) : viewV (rSquash s) c = squash (viewV s c) := by
  funext r d
  show rSquash s (ix3 r c d) = squash (viewV s c) r d
  simp only [rSquash, rSquashOf, squash, one, eps, hostDivf_apply, mulf_apply, addf_apply, bcNk_V_apply, hostSqrt_apply,
    kconst_apply, rSq_apply]
  rfl

/-! ## The agreement of the capsules with the memory rows, and the averaging -/

def rAgree (m : FVec Ideal TM4 .f32) (v : FVec Ideal TV .f32) : FVec Ideal TA .f32 :=
  sumD_F (mulf (bcM_F m) (bcQ_F (bcV_Q v)))

theorem rAgree_view (m : FVec Ideal TM4 .f32) (v : FVec Ideal TV .f32) (c : Fin 5) :
    viewA (rAgree m v) c = agree (viewV v c) (viewM m c) := by
  funext r i
  simp only [viewA, viewV, viewM, rAgree, agree, sumD_F_apply, mulf_apply, bcM_F_apply, bcQ_F_apply, bcV_Q_apply]
  exact Finset.sum_congr rfl fun k _ => mul_comm _ _

def rBlend (q : FVec Ideal TQ4 .f32) (v : FVec Ideal TV .f32) : FVec Ideal TQ4 .f32 :=
  mulf (addf q (bcV_Q v)) (kconst TQ4 h_k_Q4 0x3F000000#32)

theorem rBlend_view (q : FVec Ideal TQ4 .f32) (v : FVec Ideal TV .f32) (c : Fin 5) :
    viewQ (rBlend q v) c = fun r d => (viewQ q c r d + viewV v c r d) * half := by
  funext r d
  simp only [viewQ, viewV, rBlend, half, mulf_apply, addf_apply, bcV_Q_apply, kconst_apply]

/-! ## A round -/

/-- What a round carries, as arrays. -/
structure RSt where
  a : FVec Ideal TA .f32
  p : FVec Ideal TA .f32
  q : FVec Ideal TQ4 .f32

/-- The arrays of a round read class by class. -/
def interp (st : RSt) : St where
  a c := viewA st.a c
  p c := viewA st.p c
  q c := viewQ st.q c

/-- Two round states with the same three components are the same. -/
theorem St_ext {s t : St} (ha : s.a = t.a) (hp : s.p = t.p) (hq : s.q = t.q) : s = t := by
  obtain ⟨a, p, q⟩ := s
  obtain ⟨a', p', q'⟩ := t
  simp only at ha hp hq
  subst ha hp hq
  rfl

/-- A round's capsules. -/
def rCaps (m : FVec Ideal TM4 .f32) (st : RSt) : FVec Ideal TV .f32 := rSquash (rMix m (rWeights st.a st.p))

theorem rCaps_view (m : FVec Ideal TM4 .f32) (st : RSt) (c : Fin 5) :
    viewV (rCaps m st) c = caps (fun c' => viewM m c') (interp st) c := by
  unfold rCaps caps
  rw [rSquash_view, rMix_view, rWeights_view]
  rfl

/-- One round, on the arrays. -/
def rStep (m : FVec Ideal TM4 .f32) (st : RSt) : RSt where
  a := addf st.a (mulf st.p (rAgree m (rCaps m st)))
  p := rCorr m (rBlend st.q (rCaps m st))
  q := rBlend st.q (rCaps m st)

theorem rBlend_caps_view (m : FVec Ideal TM4 .f32) (st : RSt) (c : Fin 5) :
    viewQ (rBlend st.q (rCaps m st)) c = blend (fun c' => viewM m c') (interp st) c := by
  rw [rBlend_view, rCaps_view]
  rfl

theorem interp_rStep (m : FVec Ideal TM4 .f32) (st : RSt) : interp (rStep m st) = step (fun c' => viewM m c') (interp st) := by
  have ha : ∀ c, viewA (rStep m st).a c
      = fun r i => viewA st.a c r i + viewA st.p c r i * agree (caps (fun c' => viewM m c') (interp st) c) (viewM m c) r i := by
    intro c
    rw [← rCaps_view, ← rAgree_view]
    rfl
  have hp : ∀ c, viewA (rStep m st).p c = corr (viewM m c) (blend (fun c' => viewM m c') (interp st) c) := by
    intro c
    rw [← rBlend_caps_view]
    exact rCorr_view _ _ c
  have hq : ∀ c, viewQ (rStep m st).q c = blend (fun c' => viewM m c') (interp st) c := fun c => rBlend_caps_view m st c
  exact St_ext (funext ha) (funext hp) (funext hq)

/-- Before the first round. -/
def rStart (m : FVec Ideal TM4 .f32) (q : FVec Ideal TQ4 .f32) : RSt where
  a := kconst TA h_k_A 0x00000000#32
  p := rCorr m q
  q := q

theorem interp_rStart (m : FVec Ideal TM4 .f32) (q : FVec Ideal TQ4 .f32) :
    interp (rStart m q) = start (fun c' => viewM m c') (fun c' => viewQ q c') := by
  refine St_ext ?_ ?_ rfl
  · funext c r i
    show kconst TA h_k_A 0x00000000#32 (ix3 r i c) = zero
    rw [kconst_apply]; rfl
  · exact funext fun c => rCorr_view m q c

/-- The third round's capsules, on the arrays. -/
def rOut (m : FVec Ideal TM4 .f32) (q : FVec Ideal TQ4 .f32) : FVec Ideal TV .f32 :=
  rCaps m (rStep m (rStep m (rStart m q)))

theorem rOut_view (m : FVec Ideal TM4 .f32) (q : FVec Ideal TQ4 .f32) (c : Fin 5) :
    viewV (rOut m q) c
      = caps (fun c' => viewM m c') (step (fun c' => viewM m c') (step (fun c' => viewM m c')
          (start (fun c' => viewM m c') (fun c' => viewQ q c')))) c := by
  unfold rOut
  rw [rCaps_view, interp_rStep, interp_rStep, interp_rStart]

end Cert.Routing.Ref

end
-- ==== Proof.RefProj.lean ====
/-
  The two affine projections and the result's layout. `x·W + b` of `n` rows, reshaped to `[n, 5, 153]`, holds at
  (row, class c, feature d) the projection's column `153 c + d` (the reshape is row-major); with a unit axis added it is
  the memory (or the query) array of the routing rounds. The result `[256, 5, 153]` reshaped to `[256, 765]` holds at
  (r, j) the capsule of class `j / 153`, feature `j % 153`. Hence the whole array program is the specification's `G`.
-/
import proofs.«160887_j12713103197275_1_alg».proof.Proof.Spec
import proofs.«160887_j12713103197275_1_alg».proof.Proof.RefPrims
import proofs.«160887_j12713103197275_1_alg».proof.Proof.RefBlocks
import proofs.«160887_j12713103197275_1_alg».proof.Proof.LibPlainDot

noncomputable section

open scoped BigOperators

namespace Cert.Routing.Ref

open Idealize.ShloMosaic Idealize.ShloMosaic.ValueIdx Cert.Routing Cert.Gcn.PlainDot

section Proj
variable {n : ℕ}

/-- `x·W + b` of `n` rows, reshaped to `[n, 5, 153]`. -/
def rProj (d : DotDims ⟨2, ![n, 768]⟩ ⟨2, ![768, 765]⟩ ⟨2, ![n, 765]⟩)
    (hb1 : (⟨1, ![765]⟩ : Shape).BroadcastsInDim ⟨2, ![1, 765]⟩ (![1] : Fin 1 → Fin (⟨2, ![1, 765]⟩ : Shape).rank))
    (hb2 : (⟨2, ![1, 765]⟩ : Shape).BroadcastsInDim ⟨2, ![n, 765]⟩ (![0, 1] : Fin 2 → Fin (⟨2, ![n, 765]⟩ : Shape).rank))
    (hc : (⟨2, ![n, 765]⟩ : Shape).ShapeCasts ⟨3, ![n, 5, 153]⟩)
    (X : FVec Ideal ⟨2, ![n, 768]⟩ .f32) (W : FVec Ideal ⟨2, ![768, 765]⟩ .f32) (B : FVec Ideal ⟨1, ![765]⟩ .f32) :
    FVec Ideal ⟨3, ![n, 5, 153]⟩ .f32 :=
  shapeCast ⟨3, ![n, 5, 153]⟩ (addf (Host.dotGeneral d none X W)
    (broadcastInDim ⟨2, ![n, 765]⟩ (![0, 1] : Fin 2 → Fin (⟨2, ![n, 765]⟩ : Shape).rank) hb2
      (broadcastInDim ⟨2, ![1, 765]⟩ (![1] : Fin 1 → Fin (⟨2, ![1, 765]⟩ : Shape).rank) hb1 B))) hc

/-- At (row, class, feature) it is the specification's projection at the class's column. -/
theorem rProj_apply (d : DotDims ⟨2, ![n, 768]⟩ ⟨2, ![768, 765]⟩ ⟨2, ![n, 765]⟩) (hd : IsPlain d)
    (hb1 : (⟨1, ![765]⟩ : Shape).BroadcastsInDim ⟨2, ![1, 765]⟩ (![1] : Fin 1 → Fin (⟨2, ![1, 765]⟩ : Shape).rank))
    (hb2 : (⟨2, ![1, 765]⟩ : Shape).BroadcastsInDim ⟨2, ![n, 765]⟩ (![0, 1] : Fin 2 → Fin (⟨2, ![n, 765]⟩ : Shape).rank))
    (hc : (⟨2, ![n, 765]⟩ : Shape).ShapeCasts ⟨3, ![n, 5, 153]⟩)
    (X : FVec Ideal ⟨2, ![n, 768]⟩ .f32) (W : FVec Ideal ⟨2, ![768, 765]⟩ .f32) (B : FVec Ideal ⟨1, ![765]⟩ .f32)
    (r : Fin n) (c : Fin 5) (e : Fin 153) :
    rProj d hb1 hb2 hc X W B (ix3 r c e) = proj (cur2 X) (cur2 W) (cur1 B) r (col c e) := by
  unfold rProj
  refine (shapeCast_apply _ hc (ix3 r c e) (ix2 r (col c e)) ?_).trans ?_
  · rw [Shape.rowMajor_val_two, Shape.rowMajor_val_three]
    show r.val * 765 + (153 * c.val + e.val) = (r.val * 5 + c.val) * 153 + e.val
    omega
  · show (Host.dotGeneral d none X W (ix2 r (col c e)) : EReal)
        + (broadcastInDim ⟨2, ![n, 765]⟩ (![0, 1] : Fin 2 → Fin (⟨2, ![n, 765]⟩ : Shape).rank) hb2
            (broadcastInDim ⟨2, ![1, 765]⟩ (![1] : Fin 1 → Fin (⟨2, ![1, 765]⟩ : Shape).rank) hb1 B)) (ix2 r (col c e))
        = (∑ k : Fin 768, X (ix2 r k) * W (ix2 k (col c e))) + B (ix1 (col c e))
    refine congrArg₂ (fun a b : EReal => a + b) (dotGeneral_apply hd none X W (ix2 r (col c e))) ?_
    refine (broadcastInDim_apply _ hb2 _ (ix2 r (col c e)) (ix2 (0 : Fin 1) (col c e)) (fun a => by fin_cases a <;> rfl)).trans ?_
    exact broadcastInDim_apply _ hb1 B (ix2 (0 : Fin 1) (col c e)) (ix1 (col c e)) (fun a => by fin_cases a <;> rfl)

end Proj

/-! ## The unit axes -/

theorem viewM_bcH (P : FVec Ideal TH .f32) (c : Fin 5) : viewM (bcH_M P) c = fun i d => P (ix3 i c d) := by
  funext i d
  simp only [viewM, bcH_M_apply]

theorem viewQ_bcV (P : FVec Ideal TV .f32) (c : Fin 5) : viewQ (bcV_Q P) c = fun r d => P (ix3 r c d) := by
  funext r d
  simp only [viewQ, bcV_Q_apply]

/-! ## The whole array program -/

/-- The array program: both projections, the unit axes, three rounds, the result reshaped to `[256, 765]`. -/
def rResult (dM : DotDims ⟨2, ![128, 768]⟩ ⟨2, ![768, 765]⟩ ⟨2, ![128, 765]⟩)
    (dQ : DotDims ⟨2, ![256, 768]⟩ ⟨2, ![768, 765]⟩ ⟨2, ![256, 765]⟩)
    (hb1 : (⟨1, ![765]⟩ : Shape).BroadcastsInDim ⟨2, ![1, 765]⟩ (![1] : Fin 1 → Fin (⟨2, ![1, 765]⟩ : Shape).rank))
    (hbM : (⟨2, ![1, 765]⟩ : Shape).BroadcastsInDim ⟨2, ![128, 765]⟩ (![0, 1] : Fin 2 → Fin (⟨2, ![128, 765]⟩ : Shape).rank))
    (hbQ : (⟨2, ![1, 765]⟩ : Shape).BroadcastsInDim ⟨2, ![256, 765]⟩ (![0, 1] : Fin 2 → Fin (⟨2, ![256, 765]⟩ : Shape).rank))
    (hcM : (⟨2, ![128, 765]⟩ : Shape).ShapeCasts ⟨3, ![128, 5, 153]⟩)
    (hcQ : (⟨2, ![256, 765]⟩ : Shape).ShapeCasts ⟨3, ![256, 5, 153]⟩)
    (hcR : TV.ShapeCasts ⟨2, ![256, 765]⟩)
    (M : FVec Ideal ⟨2, ![128, 768]⟩ .f32) (Q : FVec Ideal ⟨2, ![256, 768]⟩ .f32)
    (W : FVec Ideal ⟨2, ![768, 765]⟩ .f32) (B : FVec Ideal ⟨1, ![765]⟩ .f32) : FVec Ideal ⟨2, ![256, 765]⟩ .f32 :=
  shapeCast ⟨2, ![256, 765]⟩
    (rOut (bcH_M (rProj dM hb1 hbM hcM M W B)) (bcV_Q (rProj dQ hb1 hbQ hcQ Q W B))) hcR

/-- THE ARRAY PROGRAM IS THE SPECIFICATION, index by index. -/
theorem rResult_eq (dM : DotDims ⟨2, ![128, 768]⟩ ⟨2, ![768, 765]⟩ ⟨2, ![128, 765]⟩) (hdM : IsPlain dM)
    (dQ : DotDims ⟨2, ![256, 768]⟩ ⟨2, ![768, 765]⟩ ⟨2, ![256, 765]⟩) (hdQ : IsPlain dQ)
    (hb1 : (⟨1, ![765]⟩ : Shape).BroadcastsInDim ⟨2, ![1, 765]⟩ (![1] : Fin 1 → Fin (⟨2, ![1, 765]⟩ : Shape).rank))
    (hbM : (⟨2, ![1, 765]⟩ : Shape).BroadcastsInDim ⟨2, ![128, 765]⟩ (![0, 1] : Fin 2 → Fin (⟨2, ![128, 765]⟩ : Shape).rank))
    (hbQ : (⟨2, ![1, 765]⟩ : Shape).BroadcastsInDim ⟨2, ![256, 765]⟩ (![0, 1] : Fin 2 → Fin (⟨2, ![256, 765]⟩ : Shape).rank))
    (hcM : (⟨2, ![128, 765]⟩ : Shape).ShapeCasts ⟨3, ![128, 5, 153]⟩)
    (hcQ : (⟨2, ![256, 765]⟩ : Shape).ShapeCasts ⟨3, ![256, 5, 153]⟩)
    (hcR : TV.ShapeCasts ⟨2, ![256, 765]⟩)
    (M : FVec Ideal ⟨2, ![128, 768]⟩ .f32) (Q : FVec Ideal ⟨2, ![256, 768]⟩ .f32)
    (W : FVec Ideal ⟨2, ![768, 765]⟩ .f32) (B : FVec Ideal ⟨1, ![765]⟩ .f32) :
    rResult dM dQ hb1 hbM hbQ hcM hcQ hcR M Q W B = G M Q W B := by
  have hM : (fun c' => viewM (bcH_M (rProj dM hb1 hbM hcM M W B)) c') = cls (proj (cur2 M) (cur2 W) (cur1 B)) := by
    funext c i d
    rw [viewM_bcH]
    exact rProj_apply dM hdM hb1 hbM hcM M W B i c d
  have hQ : (fun c' => viewQ (bcV_Q (rProj dQ hb1 hbQ hcQ Q W B)) c') = cls (proj (cur2 Q) (cur2 W) (cur1 B)) := by
    funext c r d
    rw [viewQ_bcV]
    exact rProj_apply dQ hdQ hb1 hbQ hcQ Q W B r c d
  funext j
  obtain ⟨r, cl, rfl⟩ : ∃ (r : Fin 256) (cl : Fin 765), j = ix2 r cl := ⟨j 0, j 1, eq_ix2 j⟩
  unfold rResult
  refine (shapeCast_apply _ hcR (ix2 r cl) (ix3 r (clsOf cl) (featOf cl)) ?_).trans ?_
  · rw [Shape.rowMajor_val_three, Shape.rowMajor_val_two]
    show (r.val * 5 + cl.val / 153) * 153 + cl.val % 153 = r.val * 765 + cl.val
    omega
  · show viewV (rOut (bcH_M (rProj dM hb1 hbM hcM M W B)) (bcV_Q (rProj dQ hb1 hbQ hcQ Q W B))) (clsOf cl) r (featOf cl)
      = out (cur2 M) (cur2 Q) (cur2 W) (cur1 B) (clsOf cl) r (featOf cl)
    rw [rOut_view, hM, hQ]
    rfl

end Cert.Routing.Ref

end
-- ==== Proof.RefValue.lean ====
/-
  The reference program's result, for any contents of the four argument arrays, is the specification's `G` of them:
  the program's composed term is, operation for operation, the array program of RefProj (`rResult`), which is `G`
  index by index.
-/
import proofs.«160887_j12713103197275_1_alg».proof.Proof.Gen.ReferenceIdeal.Run
import proofs.«160887_j12713103197275_1_alg».proof.Proof.Spec
import proofs.«160887_j12713103197275_1_alg».proof.Proof.RefBlocks
import proofs.«160887_j12713103197275_1_alg».proof.Proof.RefProj

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo
open Cert.Routing.Ref

/-- The two products are plain: one contracted axis, rows and columns kept in order, no batch axis. -/
theorem plainM : Cert.Gcn.PlainDot.IsPlain dot_S128x768_S768x765_S128x765_1_0_0_1_n_n :=
  ⟨rfl, rfl, rfl, rfl, rfl, rfl, rfl, rfl⟩
theorem plainQ : Cert.Gcn.PlainDot.IsPlain dot_S256x768_S768x765_S256x765_1_0_0_1_n_n :=
  ⟨rfl, rfl, rfl, rfl, rfl, rfl, rfl, rfl⟩

set_option maxRecDepth 8192 in
/-- The program's composed term is the array program `rResult` of the argument arrays. -/
theorem term_eq (V0 : Valuation τ sig (Elt Ideal)) :
    shapeCast _ (Host.divf (mulf (broadcastInDim S256x5x153 ![0, 1, 2] bcast_S256x5x1_S256x5x153_0_1_2 (Host.divf (res_main_v208 V0) (addf (broadcastInDim S256x5x1 ![] bcast_S_S256x5x1 (constant S_ .f32 0x3F800000#32)) (res_main_v208 V0)))) (res_main_v205 V0)) (broadcastInDim S256x5x153 ![0, 1, 2] bcast_S256x5x1_S256x5x153_0_1_2 (Host.sqrt (addf (res_main_v208 V0) (broadcastInDim S256x5x1 ![] bcast_S_S256x5x1 (constant S_ .f32 0x322BCC77#32)))))) shapeCasts_S256x5x153_S256x765
      = rResult dot_S128x768_S768x765_S128x765_1_0_0_1_n_n dot_S256x768_S768x765_S256x765_1_0_0_1_n_n
          bcast_S765_S1x765_1 bcast_S1x765_S128x765_0_1 bcast_S1x765_S256x765_0_1
          shapeCasts_S128x765_S128x5x153 shapeCasts_S256x765_S256x5x153 shapeCasts_S256x5x153_S256x765
          (V0 (Proc.devRef .tc main_arg0)) (V0 (Proc.devRef .tc main_arg1)) (V0 (Proc.devRef .tc main_arg2))
          (V0 (Proc.devRef .tc main_arg3)) :=
  rfl

set_option maxRecDepth 8192 in
/-- THE REFERENCE'S RESULT IS THE SPECIFICATION'S `G` OF THE ARGUMENT ARRAYS. -/
theorem result_eq (V0 : Valuation τ sig (Elt Ideal)) :
    shapeCast _ (Host.divf (mulf (broadcastInDim S256x5x153 ![0, 1, 2] bcast_S256x5x1_S256x5x153_0_1_2 (Host.divf (res_main_v208 V0) (addf (broadcastInDim S256x5x1 ![] bcast_S_S256x5x1 (constant S_ .f32 0x3F800000#32)) (res_main_v208 V0)))) (res_main_v205 V0)) (broadcastInDim S256x5x153 ![0, 1, 2] bcast_S256x5x1_S256x5x153_0_1_2 (Host.sqrt (addf (res_main_v208 V0) (broadcastInDim S256x5x1 ![] bcast_S_S256x5x1 (constant S_ .f32 0x322BCC77#32)))))) shapeCasts_S256x5x153_S256x765
      = Cert.Routing.G (V0 (Proc.devRef .tc main_arg0)) (V0 (Proc.devRef .tc main_arg1)) (V0 (Proc.devRef .tc main_arg2))
          (V0 (Proc.devRef .tc main_arg3)) :=
  (term_eq V0).trans (rResult_eq _ plainM _ plainQ _ _ _ _ _ _ _ _ _ _)

end Cert.ReferenceIdeal.RefValue

end
-- ==== Proof.lean ====
/-
  Capsule routing with Pearson agreement: the one-block kernel against its jnp reference, over the extended reals.

  Both programs project the 128 memory rows and the 256 query rows to five classes of 153 features, and run three
  rounds of routing per class: the `tanh` of the Pearson correlation of each query with each memory row, a softmax over
  the classes of the routing logits, the squash of the coupling-weighted sum of the memory rows; between rounds the
  logits grow by agreement times inner product and the queries are averaged with the capsules (`Proof/Spec.lean`,
  `Cert.Routing.G`: the 256 × 765 result as ONE function of the four argument arrays).

  The kernel keeps the classes apart as five bands of columns and uses tile products; the reference keeps one array
  with a class axis and uses products followed by sums. At the exact values the two differ only in the order of the two
  factors of some products and in the order in which finite sums are taken: commutativity of `·` and of finite sums on
  the extended reals, which hold at the infinities too, so the precondition is not used.
    `Proof/KBlocks.lean`, `KTree.lean`, `KRead.lean`, `KValue.lean`: the kernel's result array is `G` of the arguments;
    `Proof/RefPrims.lean` … `RefValue.lean`: the reference's result term is `G` of the arguments.
  The three frames are the generated ones (the reference's is its generated run with the result dropped), and the
  idealization rewrote nothing, so `preserves` is `True`.
-/
import proofs.«160887_j12713103197275_1_alg».proof.Defs
import proofs.«160887_j12713103197275_1_alg».proof.Proof.Gen.Kernel
import proofs.«160887_j12713103197275_1_alg».proof.Proof.Gen.Kernel.Skeleton
import proofs.«160887_j12713103197275_1_alg».proof.Proof.Gen.Kernel.Launch
import proofs.«160887_j12713103197275_1_alg».proof.Proof.Gen.Kernel.Points
import proofs.«160887_j12713103197275_1_alg».proof.Proof.Gen.Kernel.Frame
import proofs.«160887_j12713103197275_1_alg».proof.Proof.Gen.KernelIdeal
import proofs.«160887_j12713103197275_1_alg».proof.Proof.Gen.KernelIdeal.Skeleton
import proofs.«160887_j12713103197275_1_alg».proof.Proof.Gen.KernelIdeal.Launch
import proofs.«160887_j12713103197275_1_alg».proof.Proof.Gen.KernelIdeal.Points
import proofs.«160887_j12713103197275_1_alg».proof.Proof.Gen.KernelIdeal.Frame
import proofs.«160887_j12713103197275_1_alg».proof.Proof.Gen.ReferenceIdeal
import proofs.«160887_j12713103197275_1_alg».proof.Proof.Gen.Pre_finite_inputs
import proofs.«160887_j12713103197275_1_alg».proof.Proof.Gen.KernelIdeal.Value
import proofs.«160887_j12713103197275_1_alg».proof.Proof.Gen.ReferenceIdeal.Run
import proofs.«160887_j12713103197275_1_alg».proof.Proof.KValue
import proofs.«160887_j12713103197275_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the exact values the kernel's result array is `Routing.G` of its argument arrays and the reference's result is
    `Routing.G` of its own, and the arguments agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  have hG : Cert.Routing.G (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      = Cert.KernelIdeal.KValue.result m c := by
    unfold Cert.KernelIdeal.KValue.result
    rw [(hagree c).1, (hagree c).2.1, (hagree c).2.2.1, (hagree c).2.2.2]
  exact (Cert.ReferenceIdeal.RefValue.result_eq (StableHlo.launchContents m' c)).trans hG

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
